-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S4x8192 : Shape := ⟨2, ![4, 8192]⟩
abbrev S8192x1024 : Shape := ⟨2, ![8192, 1024]⟩
abbrev S2x1024 : Shape := ⟨2, ![2, 1024]⟩
abbrev S1024 : Shape := ⟨1, ![1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S2x1024 : S_.BroadcastsInDim S2x1024 (![] : Fin 0 → Fin S2x1024.rank)
  reducesTo_S2x1024_S_d0_1 : S2x1024.ReducesTo [0, 1] S_
  bcast_S_S1024 : S_.BroadcastsInDim S1024 (![] : Fin 0 → Fin S1024.rank)
  reducesTo_S1024_S_d0 : S1024.ReducesTo [0] S_
  bcast_S_S4x8192 : S_.BroadcastsInDim S4x8192 (![] : Fin 0 → Fin S4x8192.rank)
  reducesTo_S4x8192_S_d0_1 : S4x8192.ReducesTo [0, 1] S_

variable [Facts]

def fn_part1 {F : FTy → Type} [FloatOps F] (main_arg1 : IVec S4x8192 32) (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_c_8 : IVec S_ 32 := constantI S_ 32 0#32
  let main_v24 : IVec S4x8192 32 := broadcastInDim S4x8192 ![] bcast_S_S4x8192 main_c_8
  let main_v25 : IVec S4x8192 1 := cmpi .sge main_arg1 main_v24
  let main_c_9 : IVec S_ 32 := constantI S_ 32 2#32
  let main_v26 : IVec S4x8192 32 := broadcastInDim S4x8192 ![] bcast_S_S4x8192 main_c_9
  let main_v27 : IVec S4x8192 1 := cmpi .slt main_arg1 main_v26
  let main_v28 : IVec S4x8192 1 := andi main_v25 main_v27
  let main_c_10 : IVec S_ 1 := constantI S_ 1 1#1
  let main_v29 : IVec S_ 1 := (fun x v => Host.reduce IntOp.andi x v reducesTo_S4x8192_S_d0_1 h_S_) main_v28 main_c_10
  let main_v30 : IVec S_ 1 := andi main_v23 main_v29
  main_v30

def fn {F : FTy → Type} [FloatOps F] (main_arg0 : FVec F S4x8192x1024 .f32) (main_arg1 : IVec S4x8192 32) (main_arg2 : FVec F S8192x1024 .f32) (main_arg3 : FVec F S2x1024 .f32) (main_arg4 : FVec F S1024 .f32) (main_arg5 : FVec F S1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S8192x1024 .f32 := Host.absf main_arg2
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S2x1024 .f32 := Host.absf main_arg3
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_c_3 : IVec S_ 1 := constantI S_ 1 1#1
  let main_v12 : IVec S_ 1 := (fun x v => Host.reduce IntOp.andi x v reducesTo_S2x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg1 main_arg5 main_v13 main_v16
-- ==== Kernel.lean ====
abbrev S4x8192x1024 : Shape := ⟨3, ![4, 8192, 1024]⟩
abbrev S4x8192 : Shape := ⟨2, ![4, 8192]⟩
abbrev S8192x1024 : Shape := ⟨2, ![8192, 1024]⟩
abbrev S2x1024 : Shape := ⟨2, ![2, 1024]⟩
abbrev S1024 : Shape := ⟨1, ![1024]⟩
abbrev S4x4x1x2048 : Shape := ⟨4, ![4, 4, 1, 2048]⟩
abbrev S1x1024 : Shape := ⟨2, ![1, 1024]⟩
abbrev S1x2048x1024 : Shape := ⟨3, ![1, 2048, 1024]⟩
abbrev S2048x1024 : Shape := ⟨2, ![2048, 1024]⟩
abbrev S1x1x1x2048 : Shape := ⟨4, ![1, 1, 1, 2048]⟩
abbrev S1x2048 : Shape := ⟨2, ![1, 2048]⟩
abbrev S2048x1 : Shape := ⟨2, ![2048, 1]⟩
abbrev S2048 : Shape := ⟨1, ![2048]⟩

abbrev nBuf : Space → Nat
  | .hbm => 10
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S4x8192, .i32⟩
  | .hbm, ⟨2, _⟩ => ⟨S8192x1024, .f32⟩
  | .hbm, ⟨3, _⟩ => ⟨S2x1024, .f32⟩
  | .hbm, ⟨4, _⟩ => ⟨S1024, .f32⟩
  | .hbm, ⟨5, _⟩ => ⟨S1024, .f32⟩
  | .hbm, ⟨6, _⟩ => ⟨S4x4x1x2048, .i32⟩
  | .hbm, ⟨7, _⟩ => ⟨S1x1024, .f32⟩
  | .hbm, ⟨8, _⟩ => ⟨S1x1024, .f32⟩
  | .hbm, ⟨9, _⟩ => ⟨S4x8192x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S2048x1024, .f32⟩
  | .local _ .vmem, ⟨3, _⟩ => ⟨S2048x1024, .f32⟩
  | .local _ .vmem, ⟨4, _⟩ => ⟨S1x1x1x2048, .i32⟩
  | .local _ .vmem, ⟨5, _⟩ => ⟨S1x1x1x2048, .i32⟩
  | .local _ .vmem, ⟨6, _⟩ => ⟨S2x1024, .f32⟩
  | .local _ .vmem, ⟨7, _⟩ => ⟨S1x1024, .f32⟩
  | .local _ .vmem, ⟨8, _⟩ => ⟨S1x1024, .f32⟩
  | .local _ .vmem, ⟨9, _⟩ => ⟨S1x2048x1024, .f32⟩
  | .local _ .vmem, ⟨10, _⟩ => ⟨S1x2048x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S4x8192_S4x4x1x2048 : S4x8192.ShapeCasts S4x4x1x2048
  shapeCasts_S1024_S1x1024 : S1024.ShapeCasts S1x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S2048x1024_S2048x1024_0_0 : ∀ a, (![0, 0] : Fin 2 → Nat) a + S2048x1024.size a ≤ S2048x1024.size a
  h_S2048x1024 : 0 < S2048x1024.numel
  inb_S2x1024_S1x1024_0_0 : ∀ a, (![0, 0] : Fin 2 → Nat) a + S1x1024.size a ≤ S2x1024.size a
  h_S1x1024 : 0 < S1x1024.numel
  inb_S2x1024_S1x1024_1_0 : ∀ a, (![1, 0] : Fin 2 → Nat) a + S1x1024.size a ≤ S2x1024.size a
  inb_S1x1x1x2048_S1x1x1x2048_0_0_0_0 : ∀ a, (![0, 0, 0, 0] : Fin 4 → Nat) a + S1x1x1x2048.size a ≤ S1x1x1x2048.size a
  h_S1x1x1x2048 : 0 < S1x1x1x2048.numel
  shapeCasts_S1x1x1x2048_S1x2048 : S1x1x1x2048.ShapeCasts S1x2048
  shapeCasts_S1x2048_S2048x1 : S1x2048.ShapeCasts S2048x1
  broadcasts_S1x1024_S2048x1024 : S1x1024.Broadcasts S2048x1024
  broadcasts_S2048x1_S2048x1024 : S2048x1.Broadcasts S2048x1024
  reduces_S2048x1024_S2048 : S2048x1024.Reduces [1] S2048
  shapeCasts_S2048_S2048x1 : S2048.ShapeCasts S2048x1
  inb_S1x1024_S1x1024_0_0 : ∀ a, (![0, 0] : Fin 2 → Nat) a + S1x1024.size a ≤ S1x1024.size a
  shapeCasts_S1x1024_S1x1024 : S1x1024.ShapeCasts S1x1024
  shapeCasts_S2048x1024_S1x2048x1024 : S2048x1024.ShapeCasts S1x2048x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x8192x1024.size a
  hwx0_0 : ∀ i : grid0.Coords, EltTy.bits .f32 = 32 ∨ (Rect.block (s := S4x8192x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S8192x1024.size a
  hwx0_1 : ∀ i : grid0.Coords, EltTy.bits .f32 = 32 ∨ (Rect.block (s := S8192x1024) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1x2048.size a ≤ S4x4x1x2048.size a
  hwx0_2 : ∀ i : grid0.Coords, EltTy.bits .i32 = 32 ∨ (Rect.block (s := S4x4x1x2048) S1x1x1x2048.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x1024.size a ≤ S2x1024.size a
  hwx0_3 : ∀ i : grid0.Coords, EltTy.bits .f32 = 32 ∨ (Rect.block (s := S2x1024) S2x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2048x1024.size a ≤ S4x8192x1024.size a
  hwx0_6 : ∀ i : grid0.Coords, EltTy.bits .f32 = 32 ∨ (Rect.block (s := S4x8192x1024) S1x2048x1024.size (cc0_transform_6 i) (hinb0_6 i)).WholeWords (EltTy.packing .f32)

variable [Facts₀]

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x2048x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x8192x1024 : Shape := ⟨3, ![4, 8192, 1024]⟩
abbrev S4x8192 : Shape := ⟨2, ![4, 8192]⟩
abbrev S8192x1024 : Shape := ⟨2, ![8192, 1024]⟩
abbrev S2x1024 : Shape := ⟨2, ![2, 1024]⟩
abbrev S1024 : Shape := ⟨1, ![1024]⟩
abbrev S8192 : Shape := ⟨1, ![8192]⟩
abbrev S1x8192 : Shape := ⟨2, ![1, 8192]⟩
abbrev S_ : Shape := ⟨0, ![]⟩
abbrev S4x8192x1 : Shape := ⟨3, ![4, 8192, 1]⟩
abbrev S1 : Shape := ⟨1, ![1]⟩
abbrev S1x1x1 : Shape := ⟨3, ![1, 1, 1]⟩
abbrev S1x1x1024 : Shape := ⟨3, ![1, 1, 1024]⟩

abbrev nBuf : Space → Nat
  | .hbm => 86
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192, .i32⟩
  | .hbm, ⟨2, _⟩ => ⟨S8192x1024, .f32⟩
  | .hbm, ⟨3, _⟩ => ⟨S2x1024, .f32⟩
  | .hbm, ⟨4, _⟩ => ⟨S1024, .f32⟩
  | .hbm, ⟨5, _⟩ => ⟨S1024, .f32⟩
  | .hbm, ⟨6, _⟩ => ⟨S8192, .i32⟩
  | .hbm, ⟨7, _⟩ => ⟨S1x8192, .i32⟩
  | .hbm, ⟨8, _⟩ => ⟨S4x8192, .i32⟩
  | .hbm, ⟨9, _⟩ => ⟨S_, .i32⟩
  | .hbm, ⟨10, _⟩ => ⟨S4x8192, .i32⟩
  | .hbm, ⟨11, _⟩ => ⟨S4x8192, .i1⟩
  | .hbm, ⟨12, _⟩ => ⟨S_, .i32⟩
  | .hbm, ⟨13, _⟩ => ⟨S4x8192, .i32⟩
  | .hbm, ⟨14, _⟩ => ⟨S4x8192, .i32⟩
  | .hbm, ⟨15, _⟩ => ⟨S4x8192, .i32⟩
  | .hbm, ⟨16, _⟩ => ⟨S4x8192x1, .i32⟩
  | .hbm, ⟨17, _⟩ => ⟨S1, .i32⟩
  | .hbm, ⟨18, _⟩ => ⟨S_, .i32⟩
  | .hbm, ⟨19, _⟩ => ⟨S4x8192x1, .i32⟩
  | .hbm, ⟨20, _⟩ => ⟨S4x8192x1, .i1⟩
  | .hbm, ⟨21, _⟩ => ⟨S1x1x1, .i32⟩
  | .hbm, ⟨22, _⟩ => ⟨S4x8192x1, .i32⟩
  | .hbm, ⟨23, _⟩ => ⟨S4x8192x1, .i1⟩
  | .hbm, ⟨24, _⟩ => ⟨S4x8192x1, .i1⟩
  | .hbm, ⟨25, _⟩ => ⟨S_, .i1⟩
  | .hbm, ⟨26, _⟩ => ⟨S4x8192, .i1⟩
  | .hbm, ⟨27, _⟩ => ⟨S4x8192x1024, .f32⟩
  | .hbm, ⟨28, _⟩ => ⟨S4x8192x1024, .i1⟩
  | .hbm, ⟨29, _⟩ => ⟨S_, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S_, .i32⟩
  | .hbm, ⟨34, _⟩ => ⟨S4x8192, .i32⟩
  | .hbm, ⟨35, _⟩ => ⟨S4x8192, .i1⟩
  | .hbm, ⟨36, _⟩ => ⟨S_, .i32⟩
  | .hbm, ⟨37, _⟩ => ⟨S4x8192, .i32⟩
  | .hbm, ⟨38, _⟩ => ⟨S4x8192, .i32⟩
  | .hbm, ⟨39, _⟩ => ⟨S4x8192, .i32⟩
  | .hbm, ⟨40, _⟩ => ⟨S4x8192x1, .i32⟩
  | .hbm, ⟨41, _⟩ => ⟨S1, .i32⟩
  | .hbm, ⟨42, _⟩ => ⟨S_, .i32⟩
  | .hbm, ⟨43, _⟩ => ⟨S4x8192x1, .i32⟩
  | .hbm, ⟨44, _⟩ => ⟨S4x8192x1, .i1⟩
  | .hbm, ⟨45, _⟩ => ⟨S1x1x1, .i32⟩
  | .hbm, ⟨46, _⟩ => ⟨S4x8192x1, .i32⟩
  | .hbm, ⟨47, _⟩ => ⟨S4x8192x1, .i1⟩
  | .hbm, ⟨48, _⟩ => ⟨S4x8192x1, .i1⟩
  | .hbm, ⟨49, _⟩ => ⟨S_, .i1⟩
  | .hbm, ⟨50, _⟩ => ⟨S4x8192, .i1⟩
  | .hbm, ⟨51, _⟩ => ⟨S4x8192x1024, .f32⟩
  | .hbm, ⟨52, _⟩ => ⟨S4x8192x1024, .i1⟩
  | .hbm, ⟨53, _⟩ => ⟨S_, .f32⟩
  | .hbm, ⟨54, _⟩ => ⟨S4x8192x1024, .f32⟩
  | .hbm, ⟨55, _⟩ => ⟨S4x8192x1024, .f32⟩
  | .hbm, ⟨56, _⟩ => ⟨S4x8192x1024, .f32⟩
  | .hbm, ⟨57, _⟩ => ⟨S_, .f32⟩
  | .hbm, ⟨58, _⟩ => ⟨S4x8192, .f32⟩
  | .hbm, ⟨59, _⟩ => ⟨S4x8192x1, .f32⟩
  | .hbm, ⟨60, _⟩ => ⟨S_, .f32⟩
  | .hbm, ⟨61, _⟩ => ⟨S4x8192x1, .f32⟩
  | .hbm, ⟨62, _⟩ => ⟨S4x8192x1, .f32⟩
  | .hbm, ⟨63, _⟩ => ⟨S4x8192x1024, .f32⟩
  | .hbm, ⟨64, _⟩ => ⟨S4x8192x1024, .f32⟩
  | .hbm, ⟨65, _⟩ => ⟨S4x8192x1024, .f32⟩
  | .hbm, ⟨66, _⟩ => ⟨S_, .f32⟩
  | .hbm, ⟨67, _⟩ => ⟨S4x8192, .f32⟩
  | .hbm, ⟨68, _⟩ => ⟨S4x8192x1, .f32⟩
  | .hbm, ⟨69, _⟩ => ⟨S_, .f32⟩
  | .hbm, ⟨70, _⟩ => ⟨S4x8192x1, .f32⟩
  | .hbm, ⟨71, _⟩ => ⟨S4x8192x1, .f32⟩
  | .hbm, ⟨72, _⟩ => ⟨S4x8192x1024, .f32⟩
  | .hbm, ⟨73, _⟩ => ⟨S4x8192x1024, .f32⟩
  | .hbm, ⟨74, _⟩ => ⟨S_, .f32⟩
  | .hbm, ⟨75, _⟩ => ⟨S4x8192x1, .f32⟩
  | .hbm, ⟨76, _⟩ => ⟨S4x8192x1, .f32⟩
  | .hbm, ⟨77, _⟩ => ⟨S4x8192x1, .f32⟩
  | .hbm, ⟨78, _⟩ => ⟨S4x8192x1024, .f32⟩
  | .hbm, ⟨79, _⟩ => ⟨S4x8192x1024, .f32⟩
  | .hbm, ⟨80, _⟩ => ⟨S1x1x1024, .f32⟩
  | .hbm, ⟨81, _⟩ => ⟨S4x8192x1024, .f32⟩
  | .hbm, ⟨82, _⟩ => ⟨S4x8192x1024, .f32⟩
  | .hbm, ⟨83, _⟩ => ⟨S1x1x1024, .f32⟩
  | .hbm, ⟨84, _⟩ => ⟨S4x8192x1024, .f32⟩
  | .hbm, ⟨85, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v3 : Ref sig .tc := ⟨.hbm, 31, rfl⟩
abbrev main_v4 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v5 : Ref sig .tc := ⟨.hbm, 55, rfl⟩
abbrev main_v6 : Ref sig .tc := ⟨.hbm, 56, rfl⟩
abbrev main_cst : Ref sig .tc := ⟨.hbm, 57, rfl⟩
abbrev main_v7 : Ref sig .tc := ⟨.hbm, 58, rfl⟩
abbrev main_v8 : Ref sig .tc := ⟨.hbm, 59, rfl⟩
abbrev main_cst_0 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_cst_1 : Ref sig .tc := ⟨.hbm, 66, rfl⟩
abbrev main_v14 : Ref sig .tc := ⟨.hbm, 67, rfl⟩
abbrev main_v15 : Ref sig .tc := ⟨.hbm, 68, rfl⟩
abbrev main_cst_2 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_cst_3 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S4x8192_0_1 : S1x8192.BroadcastsInDim S4x8192 (![0, 1] : Fin 2 → Fin S4x8192.rank)
  bcast_S_S4x8192 : S_.BroadcastsInDim S4x8192 (![] : Fin 0 → Fin S4x8192.rank)
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S1_S1x1x1_2 : S1.BroadcastsInDim S1x1x1 (![2] : Fin 1 → Fin S1x1x1.rank)
  bcast_S1x1x1_S4x8192x1_0_1_2 : S1x1x1.BroadcastsInDim S4x8192x1 (![0, 1, 2] : Fin 3 → Fin S4x8192x1.rank)
  reducesTo_S4x8192x1_S4x8192_d2 : S4x8192x1.ReducesTo [2] S4x8192
  h_S_ : 0 < S_.numel
  bcast_S4x8192_S4x8192x1024_0_1 : S4x8192.BroadcastsInDim S4x8192x1024 (![0, 1] : Fin 2 → Fin S4x8192x1024.rank)
  bcast_S_S4x8192x1024 : S_.BroadcastsInDim S4x8192x1024 (![] : Fin 0 → Fin S4x8192x1024.rank)
  reducesTo_S4x8192x1024_S4x8192_d2 : S4x8192x1024.ReducesTo [2] S4x8192
  bcast_S4x8192x1_S4x8192x1024_0_1_2 : S4x8192x1.BroadcastsInDim S4x8192x1024 (![0, 1, 2] : Fin 3 → Fin S4x8192x1024.rank)
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)
  gather_S8192x1024_S4x8192x1_S4x8192x1024_2_0_n_n_0_2_11024_wf : GatherDims.WF S8192x1024 S4x8192x1 S4x8192x1024 [2] [0] [] [0] [] 2 ![1, 1024]
  gather_S2x1024_S4x8192x1_S4x8192x1024_2_0_n_n_0_2_11024_wf : GatherDims.WF S2x1024 S4x8192x1 S4x8192x1024 [2] [0] [] [0] [] 2 ![1, 1024]

variable [Facts₀]

def gather_S8192x1024_S4x8192x1_S4x8192x1024_2_0_n_n_0_2_11024 : GatherDims S8192x1024 S4x8192x1 S4x8192x1024 where
  offsetDims := [2]
  collapsedSliceDims := [0]
  operandBatchingDims := []
  startIndicesBatchingDims := []
  startIndexMap := [0]
  indexVectorDim := 2
  sliceSizes := ![1, 1024]
  wf := gather_S8192x1024_S4x8192x1_S4x8192x1024_2_0_n_n_0_2_11024_wf
def gather_S2x1024_S4x8192x1_S4x8192x1024_2_0_n_n_0_2_11024 : GatherDims S2x1024 S4x8192x1 S4x8192x1024 where
  offsetDims := [2]
  collapsedSliceDims := [0]
  operandBatchingDims := []
  startIndicesBatchingDims := []
  startIndexMap := [0]
  indexVectorDim := 2
  sliceSizes := ![1, 1024]
  wf := gather_S2x1024_S4x8192x1_S4x8192x1024_2_0_n_n_0_2_11024_wf

class Facts : Prop extends Facts₀ where

variable [Facts]
-- ==== Proof.Spec.lean ====
/-
  The mathematics of the claim, with no program in sight.

  A token's embedding is a row of 1024 extended reals: the word row plus the position row plus one of the two
  token-type rows. The result is that row normalised: with mean `μ = (∑ x) / 1024`, centred row `x - μ` and variance
  `σ² = (∑ (x - μ)²) / 1024`, entry `c` of the result is the centred entry scaled by `1 / √(σ² + ε)`, times the
  weight `g c`, plus the bias `b c`.

  The two programs spell two things differently.
  * The token-type row. One program reads the table at the row the id names (`embR`). The other never indexes the
    table: it forms `row₀ + id · (row₁ - row₀)` with the id converted to a number (`embK`). For an id of 0 or 1 and a
    table of real numbers the two agree (Proof/Algebra.lean).
  * The scaling. One divides the centred entry by `√(σ² + ε)` (`lnR`); the other multiplies it by the reciprocal
    square root of `σ² + ε` (`lnK`). For a real positive `σ² + ε` these are one number, whatever extended real the
    centred entry is.
  Sums are plain finite sums, so no order of summation appears anywhere.
-/
import Idealize.ShloMosaic.PureOps.Ideal
import Idealize.ShloMosaic.Lib.ValueIdx

noncomputable section

open scoped BigOperators

namespace Cert.Spec

open Idealize.ShloMosaic Idealize.ShloMosaic.ValueIdx

/-- Indices of the word embeddings and of the result: (batch, position, column). -/
abbrev IW := (⟨3, ![4, 8192, 1024]⟩ : Shape).Idx
/-- Indices of the token-type ids: (batch, position). -/
abbrev II := (⟨2, ![4, 8192]⟩ : Shape).Idx
/-- Indices of the position table: (position, column). -/
abbrev IP := (⟨2, ![8192, 1024]⟩ : Shape).Idx
/-- Indices of the token-type table: (type, column). -/
abbrev IT := (⟨2, ![2, 1024]⟩ : Shape).Idx
/-- Indices of the weight and of the bias: (column). -/
abbrev IH := (⟨1, ![1024]⟩ : Shape).Idx

/-- The row length 1024 as both programs write it, a float word. -/
abbrev n1024 : EReal := Ideal.ofBits .f32 0x44800000#32
/-- The ε both programs add to the variance, the same float word in both. -/
abbrev eps : EReal := Ideal.ofBits .f32 0x2B8CBCCC#32

/-- The mean of a row. -/
def mean (x : Fin 1024 → EReal) : EReal := Ideal.div (∑ k : Fin 1024, x k) n1024
/-- A row's entry minus the row's mean. -/
def cen (x : Fin 1024 → EReal) (c : Fin 1024) : EReal := x c - mean x
/-- The variance of a row: the mean of the squared centred entries. -/
def var (x : Fin 1024 → EReal) : EReal := Ideal.div (∑ k : Fin 1024, cen x k * cen x k) n1024

/-- The normalised row, scaled by the reciprocal square root: `((x c - μ) · rsqrt (σ² + ε)) · g c + b c`. -/
def lnK (x g b : Fin 1024 → EReal) (c : Fin 1024) : EReal :=
  cen x c * Ideal.rsqrt (var x + eps) * g c + b c
/-- The normalised row, divided by the square root: `g c · ((x c - μ) / √(σ² + ε)) + b c`. -/
def lnR (x g b : Fin 1024 → EReal) (c : Fin 1024) : EReal :=
  g c * Ideal.div (cen x c) (Ideal.sqrt (var x + eps)) + b c

/-- The table row an id names: row 1 for the word 1, row 0 otherwise (only 0 and 1 are ids: `IdsOk`). -/
def row (v : BitVec 32) : Fin 2 := if v = 1#32 then 1 else 0

/-- The embedding with the token-type row blended: `w + p + row₀ + id · (row₁ - row₀)`, the id read as a signed integer. -/
def embK (w : IW → EReal) (ids : II → BitVec 32) (p : IP → EReal) (tt : IT → EReal)
    (b : Fin 4) (s : Fin 8192) (k : Fin 1024) : EReal :=
  w (ix3 b s k) + p (ix2 s k) + tt (ix2 (0 : Fin 2) k)
    + (((ids (ix2 b s)).toInt : ℝ) : EReal) * (tt (ix2 (1 : Fin 2) k) - tt (ix2 (0 : Fin 2) k))
/-- The embedding with the token-type row looked up: `w + p + row_id`. -/
def embR (w : IW → EReal) (ids : II → BitVec 32) (p : IP → EReal) (tt : IT → EReal)
    (b : Fin 4) (s : Fin 8192) (k : Fin 1024) : EReal :=
  w (ix3 b s k) + p (ix2 s k) + tt (ix2 (row (ids (ix2 b s))) k)

/-- The whole result with the blended row and the reciprocal square root. -/
def outK (w : IW → EReal) (ids : II → BitVec 32) (p : IP → EReal) (tt : IT → EReal) (g b : IH → EReal) : IW → EReal :=
  fun i => lnK (fun k => embK w ids p tt (i 0) (i 1) k) (fun k => g (ix1 k)) (fun k => b (ix1 k)) (i 2)
/-- The whole result with the looked-up row and the division by the square root. -/
def outR (w : IW → EReal) (ids : II → BitVec 32) (p : IP → EReal) (tt : IT → EReal) (g b : IH → EReal) : IW → EReal :=
  fun i => lnR (fun k => embR w ids p tt (i 0) (i 1) k) (fun k => g (ix1 k)) (fun k => b (ix1 k)) (i 2)

/-- Every token-type id is 0 or 1: the ids index a table of two rows. -/
def IdsOk (ids : II → BitVec 32) : Prop := ∀ j, ids j = 0#32 ∨ ids j = 1#32
/-- Every entry is a real number (neither infinity). -/
def IsReal {ι : Type} (x : ι → EReal) : Prop := ∀ j, ∃ r : ℝ, x j = (r : EReal)

end Cert.Spec

end
-- ==== Proof.LibColumn.lean ====
/-
  Three readings of array operations at one entry, general in the extents: a vector made a column, a column
  repeated along the rows, and the sum of a matrix's rows on the extended reals.

  A reduction over the last axis of a matrix that keeps its dimensions (a row's maximum subtracted from the row,
  a row divided by its sum) is spelt with these: the vector of row values [a] is cast to a column [a, 1], and
  the column is broadcast to [a, b]. The result has the row's value at every entry of the row. The row sum
  itself, an additive reduction along the second axis from the zero word, is at row n the finite sum of the
  entries (n, m).
-/
import Idealize.ShloMosaic.PureOps.Ideal.Laws
import Idealize.ShloMosaic.Lib.ValueIdx
import Idealize.ShloMosaic.Lib.Pipeline.Value

noncomputable section

open scoped BigOperators

namespace Cert.LibColumn

open Idealize.ShloMosaic Idealize.ShloMosaic.ValueIdx

/-! ## Two layout readings: a vector as a column, a column repeated along the rows -/

section Layout
variable {α : Type}

/-- A vector [a] cast to a column [a, 1] reads, at (i, u), the vector at i: in row-major order the position of
    (i, u) in [a, 1] is i · 1 + u, and u = 0 because the second axis has one coordinate, so it is the position i
    of the vector's entry. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at (p, 0). A broadcast keeps a coordinate on
    an axis the operand shares and puts 0 on an axis where the operand has extent one. The second axis has
    extent one, so its coordinate is 0; on the first axis the coordinate p is kept, and if a = 1 then p = 0
    anyway. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two composed: a vector v [a] made a column and the column repeated along each row gives the matrix
    whose entry (n, m) is v(n), whatever m. This is how the kernel subtracts a row's maximum from the row and
    divides a row by its sum. -/
theorem column_apply {a b : ℕ} (v : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (n : Fin a) (m : Fin b) :
    broadcastTo ⟨2, ![a, b]⟩ (shapeCast ⟨2, ![a, 1]⟩ v h₁) h₂ (ix2 n m) = v (ix1 n) :=
  (broadcastTo_a1_ab_apply _ h₂ n m).trans (shapeCast_a_a1_apply v h₁ n 0)

end Layout

/-! ## The sum of a row -/

/-- An additive reduction of a matrix [a, b] along its second axis, from the zero word, is at n the sum over
    m < b of the entries (n, m). The library reads the reduction as the sum over the reduced axis of the source
    at the result index with the reduced coordinate put back in; for a matrix reduced along its columns that
    index is (n, m), coordinate by coordinate. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (n : Fin a) :
    multiReduction (F := Ideal) .add [1] ⟨1, ![a]⟩ src 0x00000000#32 h hφ hacc (ix1 n) = ∑ m : Fin b, src (ix2 n m) :=
  (Ideal.multiReduction_add_single src 0x00000000#32 h hφ hacc (ix1 n)).trans
    (Finset.sum_congr rfl fun m _ => congrArg src (funext fun c => Fin.ext (by
      match c with
      | ⟨0, _⟩ => rfl
      | ⟨1, _⟩ => rfl)))

end Cert.LibColumn

end
-- ==== Proof.KernelRow.lean ====
/-
  One row of one block, normalised.

  At a grid point the body holds seven blocks: a block of word embeddings `P0` [1, 2048, 1024], the matching block of
  position embeddings `P1` [2048, 1024], the two rows `P2` and `P4` of the token-type table (each [1, 1024]), the
  block's 2048 token-type ids `P3` [1, 1, 1, 2048], the weight `P5` and the bias `P6` (each [1, 1024]).

  Row `r` of the block is the embedding
      x(k) = P0(0, r, k) + P1(r, k) + P2(0, k) + id(r) · (P4(0, k) − P2(0, k)),      id(r) = P3(0, 0, 0, r) as a number,
  (`blockRow`), and what the body stores at (0, r, k) is that row normalised: `Spec.lnK x g b k` with g = P5(0, ·),
  b = P6(0, ·).

  The body computes on whole [2048, 1024] matrices. Its result at a block index is one expression of the blocks'
  entries in which two reductions of whole matrices remain: the sum of the embedding matrix along each row and the sum
  of the squared centred matrix along each row. They are read here:
    * the embedding matrix (`rowMat`) at (r, k) is x(k): the word block with its unit axis dropped, the table rows and
      their difference repeated down the 2048 rows, the ids turned into a column and repeated along the 1024 columns;
    * so its row sum at r is ∑ₖ x(k), the column of means (`meanMat`) at (r, k) is that sum divided by 1024, the
      centred matrix (`cenMat`) at (r, k) is x(k) minus the mean, and the row sum of its square at r is
      ∑ₖ (x(k) − μ)².
  With both sums read, the body's expression and `Spec.lnK` are the same expression, operation for operation.
-/
import proofs.«106403_g15573551416060_cont_sun_m_498_33_alg».proof.Proof.KernelValueGen
import proofs.«106403_g15573551416060_cont_sun_m_498_33_alg».proof.Proof.Spec
import proofs.«106403_g15573551416060_cont_sun_m_498_33_alg».proof.Proof.LibColumn
import Idealize.ShloMosaic.Lib.ValueLayout

noncomputable section

open scoped BigOperators

namespace Cert.KernelIdeal.KValue

open Cert.KernelIdeal Cert.KernelIdeal.Gen Idealize.ShloMosaic Idealize.ShloMosaic.ValueIdx

/-! ## The embedding of one row -/

/-- Row `r` of a block's embeddings: word entry plus position entry plus table row 0, plus the row's id times the
    difference of the two table rows. The id is read as a signed integer. -/
def blockRow (P0 : Vec Ideal S1x2048x1024 .f32) (P1 : Vec Ideal S2048x1024 .f32) (P2 : Vec Ideal S1x1024 .f32)
    (P3 : Vec Ideal S1x1x1x2048 .i32) (P4 : Vec Ideal S1x1024 .f32) (r : Fin 2048) : Fin 1024 → EReal :=
  fun k => P0 (ix3 (0 : Fin 1) r k) + P1 (ix2 r k) + P2 (ix2 (0 : Fin 1) k)
    + (((P3 (ix4 (0 : Fin 1) (0 : Fin 1) (0 : Fin 1) r)).toInt : ℝ) : EReal) * (P4 (ix2 (0 : Fin 1) k) - P2 (ix2 (0 : Fin 1) k))

/-- The whole [2048, 1024] matrix of embeddings as the body builds it from the blocks. -/
abbrev rowMat (P0 : Vec Ideal S1x2048x1024 .f32) (P1 : Vec Ideal S2048x1024 .f32) (P2 : Vec Ideal S1x1024 .f32)
    (P3 : Vec Ideal S1x1x1x2048 .i32) (P4 : Vec Ideal S1x1024 .f32) : FVec Ideal S2048x1024 .f32 :=
  addf (addf (addf (shapeCast S2048x1024 P0 shapeCasts_S1x2048x1024_S2048x1024) P1) (broadcastTo S2048x1024 P2 broadcasts_S1x1024_S2048x1024)) (mulf (broadcastTo S2048x1024 (shapeCast S2048x1 (sitofp .f32 (shapeCast S1x2048 P3 shapeCasts_S1x1x1x2048_S1x2048)) shapeCasts_S1x2048_S2048x1) broadcasts_S2048x1_S2048x1024) (broadcastTo S2048x1024 (subf P4 P2) broadcasts_S1x1024_S2048x1024))

/-- The ids as a column of numbers: the ids' block [1, 1, 1, 2048] is cast to [1, 2048], converted, and cast to
    [2048, 1]. Both casts keep the row-major position, which for (r, 0) in [2048, 1], for (0, r) in [1, 2048] and for
    (0, 0, 0, r) in [1, 1, 1, 2048] is r. So the column's entry r is the id of row r. -/
theorem ids_col (P3 : Vec Ideal S1x1x1x2048 .i32) (r : Fin 2048) (u : Fin 1) :
    shapeCast S2048x1 (sitofp (F := Ideal) .f32 (shapeCast S1x2048 P3 shapeCasts_S1x1x1x2048_S1x2048)) shapeCasts_S1x2048_S2048x1 (ix2 r u)
      = (((P3 (ix4 (0 : Fin 1) (0 : Fin 1) (0 : Fin 1) r)).toInt : ℝ) : EReal) := by
  have hu : u.val = 0 := by omega
  refine (shapeCast_apply _ _ (ix2 r u) (ix2 (0 : Fin 1) r) (by
    rw [Shape.rowMajor_val_two, Shape.rowMajor_val_two]
    show 0 * 2048 + r.val = r.val * 1 + u.val
    omega)).trans ?_
  refine (sitofp_apply _ _).trans ?_
  refine congrArg (fun b : BitVec 32 => (((b.toInt : ℝ)) : EReal)) ?_
  exact shapeCast_apply _ _ (ix2 (0 : Fin 1) r) (ix4 (0 : Fin 1) (0 : Fin 1) (0 : Fin 1) r) (by
    rw [Shape.rowMajor_val_four, Shape.rowMajor_val_two]
    show ((0 * 1 + 0) * 1 + 0) * 2048 + r.val = 0 * 2048 + r.val
    omega)

/-- The embedding matrix at (r, k) is entry k of row r's embedding: the word block without its unit axis reads
    (0, r, k); a table row repeated down the rows reads (0, k); the ids' column repeated along the columns reads the
    id of row r. -/
theorem rowMat_apply (P0 : Vec Ideal S1x2048x1024 .f32) (P1 : Vec Ideal S2048x1024 .f32) (P2 : Vec Ideal S1x1024 .f32)
    (P3 : Vec Ideal S1x1x1x2048 .i32) (P4 : Vec Ideal S1x1024 .f32) (r : Fin 2048) (k : Fin 1024) :
    rowMat P0 P1 P2 P3 P4 (ix2 r k) = blockRow P0 P1 P2 P3 P4 r k := by
  show shapeCast S2048x1024 P0 shapeCasts_S1x2048x1024_S2048x1024 (ix2 r k) + P1 (ix2 r k)
      + broadcastTo S2048x1024 P2 broadcasts_S1x1024_S2048x1024 (ix2 r k)
      + broadcastTo S2048x1024 (shapeCast S2048x1 (sitofp (F := Ideal) .f32 (shapeCast S1x2048 P3 shapeCasts_S1x1x1x2048_S1x2048)) shapeCasts_S1x2048_S2048x1) broadcasts_S2048x1_S2048x1024 (ix2 r k)
        * broadcastTo S2048x1024 (subf (F := Ideal) P4 P2) broadcasts_S1x1024_S2048x1024 (ix2 r k) = _
  rw [shapeCast_1ab_ab_apply, broadcastTo_1b_ab_apply, Cert.LibColumn.broadcastTo_a1_ab_apply, ids_col, broadcastTo_1b_ab_apply]
  rfl

/-! ## The two row sums -/

/-- The embedding matrix summed along row r is the sum of row r's embedding. -/
theorem rowSum_rowMat (P0 : Vec Ideal S1x2048x1024 .f32) (P1 : Vec Ideal S2048x1024 .f32) (P2 : Vec Ideal S1x1024 .f32)
    (P3 : Vec Ideal S1x1x1x2048 .i32) (P4 : Vec Ideal S1x1024 .f32) (r : Fin 2048) :
    multiReduction (F := Ideal) .add [1] S2048 (rowMat P0 P1 P2 P3 P4) 0x00000000#32 reduces_S2048x1024_S2048 (.inl rfl) rfl (ix1 r)
      = ∑ k : Fin 1024, blockRow P0 P1 P2 P3 P4 r k :=
  (Cert.LibColumn.rowSum_apply _ _ _ _ r).trans (Finset.sum_congr rfl fun k _ => rowMat_apply P0 P1 P2 P3 P4 r k)

/-- The matrix of means: the row sums made a column, divided by 1024, repeated along the columns. -/
abbrev meanMat (P0 : Vec Ideal S1x2048x1024 .f32) (P1 : Vec Ideal S2048x1024 .f32) (P2 : Vec Ideal S1x1024 .f32)
    (P3 : Vec Ideal S1x1x1x2048 .i32) (P4 : Vec Ideal S1x1024 .f32) : FVec Ideal S2048x1024 .f32 :=
  broadcastTo S2048x1024 (divf (shapeCast S2048x1 (multiReduction .add [1] S2048 (rowMat P0 P1 P2 P3 P4) 0x00000000#32 reduces_S2048x1024_S2048 (.inl rfl) rfl) shapeCasts_S2048_S2048x1) (broadcast S2048x1 (Scalar.ofBits .f32 0x44800000#32))) broadcasts_S2048x1_S2048x1024

/-- Every entry of row r of the matrix of means is the mean of row r's embedding. -/
theorem meanMat_apply (P0 : Vec Ideal S1x2048x1024 .f32) (P1 : Vec Ideal S2048x1024 .f32) (P2 : Vec Ideal S1x1024 .f32)
    (P3 : Vec Ideal S1x1x1x2048 .i32) (P4 : Vec Ideal S1x1024 .f32) (r : Fin 2048) (k : Fin 1024) :
    meanMat P0 P1 P2 P3 P4 (ix2 r k) = Cert.Spec.mean (blockRow P0 P1 P2 P3 P4 r) := by
  refine (Cert.LibColumn.broadcastTo_a1_ab_apply _ _ r k).trans ?_
  show Ideal.div (shapeCast S2048x1 (multiReduction (F := Ideal) .add [1] S2048 (rowMat P0 P1 P2 P3 P4) 0x00000000#32 reduces_S2048x1024_S2048 (.inl rfl) rfl) shapeCasts_S2048_S2048x1 (ix2 r (0 : Fin 1))) Cert.Spec.n1024 = _
  rw [Cert.LibColumn.shapeCast_a_a1_apply, rowSum_rowMat]
  rfl

/-- The centred matrix: the embeddings minus their row's mean. -/
abbrev cenMat (P0 : Vec Ideal S1x2048x1024 .f32) (P1 : Vec Ideal S2048x1024 .f32) (P2 : Vec Ideal S1x1024 .f32)
    (P3 : Vec Ideal S1x1x1x2048 .i32) (P4 : Vec Ideal S1x1024 .f32) : FVec Ideal S2048x1024 .f32 :=
  subf (rowMat P0 P1 P2 P3 P4) (meanMat P0 P1 P2 P3 P4)

/-- The centred matrix at (r, k) is entry k of row r's embedding minus that row's mean. -/
theorem cenMat_apply (P0 : Vec Ideal S1x2048x1024 .f32) (P1 : Vec Ideal S2048x1024 .f32) (P2 : Vec Ideal S1x1024 .f32)
    (P3 : Vec Ideal S1x1x1x2048 .i32) (P4 : Vec Ideal S1x1024 .f32) (r : Fin 2048) (k : Fin 1024) :
    cenMat P0 P1 P2 P3 P4 (ix2 r k) = Cert.Spec.cen (blockRow P0 P1 P2 P3 P4 r) k := by
  show rowMat P0 P1 P2 P3 P4 (ix2 r k) - meanMat P0 P1 P2 P3 P4 (ix2 r k) = _
  rw [rowMat_apply, meanMat_apply]
  rfl

/-- The squared centred matrix summed along row r is the sum of the squared centred entries of row r's embedding. -/
theorem sqSum_cenMat (P0 : Vec Ideal S1x2048x1024 .f32) (P1 : Vec Ideal S2048x1024 .f32) (P2 : Vec Ideal S1x1024 .f32)
    (P3 : Vec Ideal S1x1x1x2048 .i32) (P4 : Vec Ideal S1x1024 .f32) (r : Fin 2048) :
    multiReduction (F := Ideal) .add [1] S2048 (mulf (cenMat P0 P1 P2 P3 P4) (cenMat P0 P1 P2 P3 P4)) 0x00000000#32 reduces_S2048x1024_S2048 (.inl rfl) rfl (ix1 r)
      = ∑ k : Fin 1024, Cert.Spec.cen (blockRow P0 P1 P2 P3 P4 r) k * Cert.Spec.cen (blockRow P0 P1 P2 P3 P4 r) k :=
  (Cert.LibColumn.rowSum_apply _ _ _ _ r).trans (Finset.sum_congr rfl fun k _ => by
    show cenMat P0 P1 P2 P3 P4 (ix2 r k) * cenMat P0 P1 P2 P3 P4 (ix2 r k) = _
    rw [cenMat_apply])

/-! ## The body's result at an entry of the block -/

/-- WHAT THE BODY LEAVES AT (0, r, k) of its output block is row r's embedding normalised, at k. The body's expression
    reads each block at an index written out of the block index's coordinates; at (0, r, k) those are (0, r, k),
    (r, k), (0, k), (0, 0, 0, r) and (r). With the two row sums read as finite sums, the expression is `Spec.lnK`
    of the row, term for term: centred entry, times the reciprocal square root of variance plus ε, times the weight,
    plus the bias. -/
theorem E6_row (P0 : Vec Ideal S1x2048x1024 .f32) (P1 : Vec Ideal S2048x1024 .f32) (P2 : Vec Ideal S1x1024 .f32)
    (P3 : Vec Ideal S1x1x1x2048 .i32) (P4 : Vec Ideal S1x1024 .f32) (P5 : Vec Ideal S1x1024 .f32) (P6 : Vec Ideal S1x1024 .f32)
    (r : Fin 2048) (k : Fin 1024) :
    ValueP.E6 (F := Ideal) P0 P1 P2 P3 P4 P5 P6 (ix3 (0 : Fin 1) r k)
      = Cert.Spec.lnK (blockRow P0 P1 P2 P3 P4 r) (fun k' => P5 (ix2 (0 : Fin 1) k')) (fun k' => P6 (ix2 (0 : Fin 1) k')) k := by
  have i0 : ValueP.ix6_0 (ix3 (0 : Fin 1) r k) = ix3 (0 : Fin 1) r k :=
    funext fun a => match a with | ⟨0, _⟩ => rfl | ⟨1, _⟩ => rfl | ⟨2, _⟩ => rfl
  have i1 : ValueP.ix6_1 (ix3 (0 : Fin 1) r k) = ix2 r k :=
    funext fun a => match a with | ⟨0, _⟩ => rfl | ⟨1, _⟩ => rfl
  have i2 : ValueP.ix6_2 (ix3 (0 : Fin 1) r k) = ix2 (0 : Fin 1) k :=
    funext fun a => match a with | ⟨0, _⟩ => rfl | ⟨1, _⟩ => rfl
  have i3 : ValueP.ix6_3 (ix3 (0 : Fin 1) r k) = ix4 (0 : Fin 1) (0 : Fin 1) (0 : Fin 1) r :=
    funext fun a => match a with | ⟨0, _⟩ => rfl | ⟨1, _⟩ => rfl | ⟨2, _⟩ => rfl | ⟨3, _⟩ => rfl
  have i4 : ValueP.ix6_4 (ix3 (0 : Fin 1) r k) = ix2 (0 : Fin 1) k :=
    funext fun a => match a with | ⟨0, _⟩ => rfl | ⟨1, _⟩ => rfl
  have i5 : ValueP.ix6_5 (ix3 (0 : Fin 1) r k) = ix2 (0 : Fin 1) k :=
    funext fun a => match a with | ⟨0, _⟩ => rfl | ⟨1, _⟩ => rfl
  have i6 : ValueP.ix6_6 (ix3 (0 : Fin 1) r k) = ix1 r :=
    funext fun a => match a with | ⟨0, _⟩ => rfl
  have i7 : ValueP.ix6_7 (ix3 (0 : Fin 1) r k) = ix1 r :=
    funext fun a => match a with | ⟨0, _⟩ => rfl
  have i8 : ValueP.ix6_8 (ix3 (0 : Fin 1) r k) = ix2 (0 : Fin 1) k :=
    funext fun a => match a with | ⟨0, _⟩ => rfl | ⟨1, _⟩ => rfl
  have i9 : ValueP.ix6_9 (ix3 (0 : Fin 1) r k) = ix2 (0 : Fin 1) k :=
    funext fun a => match a with | ⟨0, _⟩ => rfl | ⟨1, _⟩ => rfl
  show (P0 (ValueP.ix6_0 (ix3 (0 : Fin 1) r k)) + P1 (ValueP.ix6_1 (ix3 (0 : Fin 1) r k)) + P2 (ValueP.ix6_2 (ix3 (0 : Fin 1) r k))
        + (((P3 (ValueP.ix6_3 (ix3 (0 : Fin 1) r k))).toInt : ℝ) : EReal) * (P4 (ValueP.ix6_4 (ix3 (0 : Fin 1) r k)) - P2 (ValueP.ix6_5 (ix3 (0 : Fin 1) r k)))
        - Ideal.div (multiReduction (F := Ideal) .add [1] S2048 (rowMat P0 P1 P2 P3 P4) 0x00000000#32 reduces_S2048x1024_S2048 (.inl rfl) rfl (ValueP.ix6_6 (ix3 (0 : Fin 1) r k))) Cert.Spec.n1024)
      * Ideal.rsqrt (Ideal.div (multiReduction (F := Ideal) .add [1] S2048 (mulf (cenMat P0 P1 P2 P3 P4) (cenMat P0 P1 P2 P3 P4)) 0x00000000#32 reduces_S2048x1024_S2048 (.inl rfl) rfl (ValueP.ix6_7 (ix3 (0 : Fin 1) r k))) Cert.Spec.n1024 + Cert.Spec.eps)
      * P5 (ValueP.ix6_8 (ix3 (0 : Fin 1) r k)) + P6 (ValueP.ix6_9 (ix3 (0 : Fin 1) r k)) = _
  rw [i0, i1, i2, i3, i4, i5, i6, i7, i8, i9, rowSum_rowMat, sqSum_cenMat]
  rfl

end Cert.KernelIdeal.KValue

end
-- ==== Proof.KernelBlocks.lean ====
/-
  What one grid point writes back.

  The grid has 4 × 4 points. Write (i, j) for a point's two coordinates. The point holds
    * the block of word embeddings with batch j and positions 2048·i … 2048·i + 2047, all 1024 columns;
    * the same positions of the position table;
    * the same positions of batch j's token-type ids. The ids [4, 8192] were reshaped to [4, 4, 1, 2048] before the
      kernel; a reshape keeps the row-major position, so entry (j, i, 0, r) of the reshaped array is the id of batch j
      at position 2048·i + r;
    * the whole token-type table, and the weight and the bias, each reshaped from [1024] to [1, 1024],
  and it writes the block of the result with batch j and positions 2048·i … 2048·i + 2047.

  So entry (0, r, k) of what the point writes is computed from row r of these blocks, and row r of these blocks is
  the embedding `Spec.embK` of batch b = j at position s = 2048·i + r. The body normalises that row
  (`KernelRow.lean`), which makes the written entry `Spec.outK` at (b, s, k): the point writes its block of the
  specified result (`flushed_eq`).

  Every block's place is a block index times the block's size; an entry's coordinate in its array is that plus its
  coordinate inside the block. Which block index each input has at a point, relative to the output's, is decided
  once over the 16 points (`idx_facts`).
-/
import proofs.«106403_g15573551416060_cont_sun_m_498_33_alg».proof.Proof.KernelRow

noncomputable section

open scoped BigOperators

namespace Cert.KernelIdeal.KValue

open Cert.KernelIdeal Cert.KernelIdeal.Gen Idealize.ShloMosaic Idealize.ShloMosaic.TcCoe Idealize.SL.Sem Idealize.ShloMosaic.ValueIdx
open Idealize.ShloMosaic.Pipeline (Dat)

/-! ## The body's result from the blocks it is given -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- WHAT THE BODY STORES AT (0, r, k), from the six blocks it is given: row r's embedding normalised. The body loads
    the word block, the position block, the ids, the weight and the bias whole, and loads the token-type table twice,
    once through its first row and once through its second; a load through the whole block reads the block, and the
    load through row v at (0, k') reads the table at (v, k'). -/
theorem out_row (x0 : Vec Ideal S1x2048x1024 .f32) (x1 : Vec Ideal S2048x1024 .f32) (x2 : Vec Ideal S1x1x1x2048 .i32)
    (x3 : Vec Ideal S2x1024 .f32) (x4 x5 : Vec Ideal S1x1024 .f32) (r : Fin 2048) (k : Fin 1024) :
    out0_6 x0 x1 x2 x3 x4 x5 (ix3 (0 : Fin 1) r k)
      = Cert.Spec.lnK (fun k' => x0 (ix3 (0 : Fin 1) r k') + x1 (ix2 r k') + x3 (ix2 (0 : Fin 2) k')
            + (((x2 (ix4 (0 : Fin 1) (0 : Fin 1) (0 : Fin 1) r)).toInt : ℝ) : EReal) * (x3 (ix2 (1 : Fin 2) k') - x3 (ix2 (0 : Fin 2) k')))
          (fun k' => x4 (ix2 (0 : Fin 1) k')) (fun k' => x5 (ix2 (0 : Fin 1) k')) k := by
  unfold out0_6
  rw [ValueP.canon6_eq, E6_row]
  rw [View.ld_unit_zero (S := S1x2048x1024) hz3 _ x0, View.ld_unit_zero (S := S2048x1024) hz2 _ x1,
    View.ld_unit_zero (S := S1x1x1x2048) hz4 _ x2, View.ld_unit_zero (S := S1x1024) hz2 _ x4,
    View.ld_unit_zero (S := S1x1024) hz2 _ x5]
  have e0 : ∀ k' : Fin 1024, (View.ld x3 r0_2 : Vec Ideal S1x1024 .f32) (ix2 (0 : Fin 1) k') = x3 (ix2 (0 : Fin 2) k') := fun k' =>
    congrArg x3 (funext fun a => Fin.ext (match a with
      | ⟨0, _⟩ => rfl
      | ⟨1, _⟩ => by show 0 + 1 * k'.val = k'.val; omega))
  have e1 : ∀ k' : Fin 1024, (View.ld x3 r0_3 : Vec Ideal S1x1024 .f32) (ix2 (0 : Fin 1) k') = x3 (ix2 (1 : Fin 2) k') := fun k' =>
    congrArg x3 (funext fun a => Fin.ext (match a with
      | ⟨0, _⟩ => rfl
      | ⟨1, _⟩ => by show 0 + 1 * k'.val = k'.val; omega))
  refine congrArg (fun x => Cert.Spec.lnK x (fun k' => x4 (ix2 (0 : Fin 1) k')) (fun k' => x5 (ix2 (0 : Fin 1) k')) k) (funext fun k' => ?_)
  unfold blockRow
  rw [e0 k', e1 k']

variable (m : (ℓ : Loc nD τ sig) → Buf (Elt Ideal) ℓ)

/-! ## The three arrays reshaped before the kernel -/

/-- When the kernel starts, the ids' array [4, 4, 1, 2048] is the ids [4, 8192] reshaped. -/
theorem V_ids (c : Dev nD) :
    (V m c main_v0 : S4x4x1x2048.Idx → BitVec 32)
      = shapeCast S4x4x1x2048 (m ((c : Thread nD τ).loc main_arg1) : S4x8192.Idx → BitVec 32) shapeCasts_S4x8192_S4x4x1x2048 := by
  dsimp only [Gen.V, Gen.hostOps0]; after_results; rfl

/-- The weight's array [1, 1024] is the weight [1024] reshaped. -/
theorem V_weight (c : Dev nD) :
    (V m c main_v1 : S1x1024.Idx → EReal)
      = shapeCast S1x1024 (m ((c : Thread nD τ).loc main_arg4) : S1024.Idx → EReal) shapeCasts_S1024_S1x1024 := by
  dsimp only [Gen.V, Gen.hostOps0]; after_results; rfl

/-- The bias's array [1, 1024] is the bias [1024] reshaped. -/
theorem V_bias (c : Dev nD) :
    (V m c main_v2 : S1x1024.Idx → EReal)
      = shapeCast S1x1024 (m ((c : Thread nD τ).loc main_arg5) : S1024.Idx → EReal) shapeCasts_S1024_S1x1024 := by
  dsimp only [Gen.V, Gen.hostOps0]; after_results; rfl

/-- Entry (j, i, 0, r) of the reshaped ids is the id of batch j at position s = 2048·i + r: the row-major position
    of (j, i, 0, r) in [4, 4, 1, 2048] is ((4j + i)·1 + 0)·2048 + r = 8192·j + s, that of (j, s) in [4, 8192]. -/
theorem V_ids_apply (c : Dev nD) (j i : Fin 4) (r : Fin 2048) (s : Fin 8192) (hs : s.val = i.val * 2048 + r.val) :
    (V m c main_v0 : S4x4x1x2048.Idx → BitVec 32) (ix4 j i (0 : Fin 1) r)
      = (m ((c : Thread nD τ).loc main_arg1) : S4x8192.Idx → BitVec 32) (ix2 j s) := by
  rw [V_ids]
  exact shapeCast_apply _ _ (ix4 j i (0 : Fin 1) r) (ix2 j s) (by
    rw [Shape.rowMajor_val_two, Shape.rowMajor_val_four]
    show j.val * 8192 + s.val = ((j.val * 4 + i.val) * 1 + 0) * 2048 + r.val
    omega)

/-- Entry (0, k) of the reshaped weight is the weight at k. -/
theorem V_weight_apply (c : Dev nD) (k : Fin 1024) :
    (V m c main_v1 : S1x1024.Idx → EReal) (ix2 (0 : Fin 1) k) = (m ((c : Thread nD τ).loc main_arg4) : S1024.Idx → EReal) (ix1 k) := by
  rw [V_weight]; exact shapeCast_a_1a_apply _ _ 0 k

/-- Entry (0, k) of the reshaped bias is the bias at k. -/
theorem V_bias_apply (c : Dev nD) (k : Fin 1024) :
    (V m c main_v2 : S1x1024.Idx → EReal) (ix2 (0 : Fin 1) k) = (m ((c : Thread nD τ).loc main_arg5) : S1024.Idx → EReal) (ix1 k) := by
  rw [V_bias]; exact shapeCast_a_1a_apply _ _ 0 k

/-! ## Where each block sits -/

/-- The block indices at a point, decided over the 16 points. Call the output's block index (q₀, q₁, 0): q₀ is the
    batch and q₁ the block of positions, each at most 3. The word block has the same index; the position block has
    index (q₁, 0); the ids' block has index (q₀, q₁, 0, 0); the token-type table, the weight and the bias are one
    block each, at index zero. -/
theorem idx_facts : ∀ t : Fin cfg0.N,
    win0_0.index t (0 : Fin 3) = win0_6.index t (0 : Fin 3)
    ∧ win0_0.index t (1 : Fin 3) = win0_6.index t (1 : Fin 3)
    ∧ win0_0.index t (2 : Fin 3) = 0
    ∧ win0_1.index t (0 : Fin 2) = win0_6.index t (1 : Fin 3)
    ∧ win0_1.index t (1 : Fin 2) = 0
    ∧ win0_2.index t (0 : Fin 4) = win0_6.index t (0 : Fin 3)
    ∧ win0_2.index t (1 : Fin 4) = win0_6.index t (1 : Fin 3)
    ∧ win0_2.index t (2 : Fin 4) = 0
    ∧ win0_2.index t (3 : Fin 4) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (2 : Fin 3) = 0
    ∧ win0_6.index t (0 : Fin 3) ≤ 3 ∧ win0_6.index t (1 : Fin 3) ≤ 3 :=
  (by decide +kernel : ∀ t : Fin grid0.N, _)

/-! ## Each input block, read in its array

In each lemma b is the output block's batch q₀ and s = 2048·q₁ + r is the position of the block's row r. An entry
of a block sits in its array, on each axis, at block index × block size + its coordinate in the block. -/

/-- The word block at (0, r, k) is the word embedding of batch b at position s, column k. -/
theorem words_blk (c : Dev nD) (t : Fin cfg0.N) (r : Fin 2048) (k : Fin 1024) (b : Fin 4) (s : Fin 8192)
    (hb : b.val = win0_6.index t (0 : Fin 3)) (hs : s.val = win0_6.index t (1 : Fin 3) * 2048 + r.val) :
    (iblk m c 0 t : Vec Ideal S1x2048x1024 .f32) (ix3 (0 : Fin 1) r k)
      = (m ((c : Thread nD τ).loc main_arg0) : S4x8192x1024.Idx → EReal) (ix3 b s k) := by
  obtain ⟨e00, e01, e02, -⟩ := idx_facts t
  unfold iblk
  rw [View.read_apply]
  show V m c main_arg0 _ = _
  rw [V_main_arg0]
  refine congrArg (m ((c : Thread nD τ).loc main_arg0) : S4x8192x1024.Idx → EReal) (funext fun a => Fin.ext ?_)
  match a with
  | ⟨0, _⟩ => show win0_0.index t (0 : Fin 3) * 1 + 1 * 0 = b.val; omega
  | ⟨1, _⟩ => show win0_0.index t (1 : Fin 3) * 2048 + 1 * r.val = s.val; omega
  | ⟨2, _⟩ => show win0_0.index t (2 : Fin 3) * 1024 + 1 * k.val = k.val; omega

/-- The position block at (r, k) is the position embedding of position s, column k. -/
theorem pos_blk (c : Dev nD) (t : Fin cfg0.N) (r : Fin 2048) (k : Fin 1024) (s : Fin 8192)
    (hs : s.val = win0_6.index t (1 : Fin 3) * 2048 + r.val) :
    (iblk m c 1 t : Vec Ideal S2048x1024 .f32) (ix2 r k)
      = (m ((c : Thread nD τ).loc main_arg2) : S8192x1024.Idx → EReal) (ix2 s k) := by
  obtain ⟨-, -, -, e10, e11, -⟩ := idx_facts t
  unfold iblk
  rw [View.read_apply]
  show V m c main_arg2 _ = _
  rw [V_main_arg2]
  refine congrArg (m ((c : Thread nD τ).loc main_arg2) : S8192x1024.Idx → EReal) (funext fun a => Fin.ext ?_)
  match a with
  | ⟨0, _⟩ => show win0_1.index t (0 : Fin 2) * 2048 + 1 * r.val = s.val; omega
  | ⟨1, _⟩ => show win0_1.index t (1 : Fin 2) * 1024 + 1 * k.val = k.val; omega

/-- The ids' block at (0, 0, 0, r) is the id of batch b at position s: it is entry (q₀, q₁, 0, r) of the reshaped
    ids. -/
theorem ids_blk (c : Dev nD) (t : Fin cfg0.N) (r : Fin 2048) (b : Fin 4) (s : Fin 8192)
    (hb : b.val = win0_6.index t (0 : Fin 3)) (hs : s.val = win0_6.index t (1 : Fin 3) * 2048 + r.val) :
    (iblk m c 2 t : Vec Ideal S1x1x1x2048 .i32) (ix4 (0 : Fin 1) (0 : Fin 1) (0 : Fin 1) r)
      = (m ((c : Thread nD τ).loc main_arg1) : S4x8192.Idx → BitVec 32) (ix2 b s) := by
  obtain ⟨-, -, -, -, -, e20, e21, e22, e23, -, -, -, -, -, -, -, l0, l1⟩ := idx_facts t
  unfold iblk
  rw [View.read_apply]
  show (V m c main_v0 : S4x4x1x2048.Idx → BitVec 32) _ = _
  refine Eq.trans (congrArg (V m c main_v0 : S4x4x1x2048.Idx → BitVec 32) (funext fun a => Fin.ext ?_))
    (V_ids_apply m c b ⟨win0_6.index t (1 : Fin 3), by omega⟩ r s hs)
  match a with
  | ⟨0, _⟩ => show win0_2.index t (0 : Fin 4) * 1 + 1 * 0 = b.val; omega
  | ⟨1, _⟩ => show win0_2.index t (1 : Fin 4) * 1 + 1 * 0 = win0_6.index t (1 : Fin 3); omega
  | ⟨2, _⟩ => show win0_2.index t (2 : Fin 4) * 1 + 1 * 0 = 0; omega
  | ⟨3, _⟩ => show win0_2.index t (3 : Fin 4) * 2048 + 1 * r.val = r.val; omega

/-- The token-type table's block is the table. -/
theorem table_blk (c : Dev nD) (t : Fin cfg0.N) (v : Fin 2) (k : Fin 1024) :
    (iblk m c 3 t : Vec Ideal S2x1024 .f32) (ix2 v k)
      = (m ((c : Thread nD τ).loc main_arg3) : S2x1024.Idx → EReal) (ix2 v k) := by
  obtain ⟨-, -, -, -, -, -, -, -, -, e30, e31, -⟩ := idx_facts t
  unfold iblk
  rw [View.read_apply]
  show V m c main_arg3 _ = _
  rw [V_main_arg3]
  refine congrArg (m ((c : Thread nD τ).loc main_arg3) : S2x1024.Idx → EReal) (funext fun a => Fin.ext ?_)
  match a with
  | ⟨0, _⟩ => show win0_3.index t (0 : Fin 2) * 2 + 1 * v.val = v.val; omega
  | ⟨1, _⟩ => show win0_3.index t (1 : Fin 2) * 1024 + 1 * k.val = k.val; omega

/-- The weight's block at (0, k) is the weight at k. -/
theorem weight_blk (c : Dev nD) (t : Fin cfg0.N) (k : Fin 1024) :
    (iblk m c 4 t : Vec Ideal S1x1024 .f32) (ix2 (0 : Fin 1) k)
      = (m ((c : Thread nD τ).loc main_arg4) : S1024.Idx → EReal) (ix1 k) := by
  obtain ⟨-, -, -, -, -, -, -, -, -, -, -, e40, e41, -⟩ := idx_facts t
  unfold iblk
  rw [View.read_apply]
  show (V m c main_v1 : S1x1024.Idx → EReal) _ = _
  refine Eq.trans (congrArg (V m c main_v1 : S1x1024.Idx → EReal) (funext fun a => Fin.ext ?_)) (V_weight_apply m c k)
  match a with
  | ⟨0, _⟩ => show win0_4.index t (0 : Fin 2) * 1 + 1 * 0 = 0; omega
  | ⟨1, _⟩ => show win0_4.index t (1 : Fin 2) * 1024 + 1 * k.val = k.val; omega

/-- The bias's block at (0, k) is the bias at k. -/
theorem bias_blk (c : Dev nD) (t : Fin cfg0.N) (k : Fin 1024) :
    (iblk m c 5 t : Vec Ideal S1x1024 .f32) (ix2 (0 : Fin 1) k)
      = (m ((c : Thread nD τ).loc main_arg5) : S1024.Idx → EReal) (ix1 k) := by
  obtain ⟨-, -, -, -, -, -, -, -, -, -, -, -, -, e50, e51, -⟩ := idx_facts t
  unfold iblk
  rw [View.read_apply]
  show (V m c main_v2 : S1x1024.Idx → EReal) _ = _
  refine Eq.trans (congrArg (V m c main_v2 : S1x1024.Idx → EReal) (funext fun a => Fin.ext ?_)) (V_bias_apply m c k)
  match a with
  | ⟨0, _⟩ => show win0_5.index t (0 : Fin 2) * 1 + 1 * 0 = 0; omega
  | ⟨1, _⟩ => show win0_5.index t (1 : Fin 2) * 1024 + 1 * k.val = k.val; omega

/-! ## The block a point writes back -/

/-- The result the specification states, of the six arguments as launched. -/
abbrev result (c : Dev nD) : S4x8192x1024.Idx → EReal :=
  Cert.Spec.outK (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- WHAT A POINT WRITES BACK is its block of the specified result. Entry (0, r, k) of the written block goes to
    (b, s, k) of the array, b = q₀ and s = 2048·q₁ + r. It is the normalised row r of the point's blocks
    (`out_row`), and row r of the point's blocks is the embedding of batch b at position s, entry by entry (the
    block reads above); the weight and bias blocks are the weight and the bias. That is `Spec.outK` at (b, s, k). -/
theorem flushed_eq (c : Dev nD) (t : Fin cfg0.N) :
    (dats m 0 c).flushed 6 t = ((cfg0.win 6).blk t).view.read (Elt Ideal) (result m c) := by
  rw [ValueP.flushed6]
  obtain ⟨-, -, -, -, -, -, -, -, -, -, -, -, -, -, -, e62, l0, l1⟩ := idx_facts t
  funext y
  obtain ⟨u, r, k, rfl⟩ : ∃ (u : Fin 1) (r : Fin 2048) (k : Fin 1024), y = ix3 u r k := ⟨y 0, y 1, y 2, eq_ix3 y⟩
  obtain rfl : u = 0 := Subsingleton.elim _ _
  rw [View.read_apply]
  have hi : ((cfg0.win 6).blk t).view.emb (ix3 (0 : Fin 1) r k)
      = ix3 (⟨win0_6.index t (0 : Fin 3), by omega⟩ : Fin 4) (⟨win0_6.index t (1 : Fin 3) * 2048 + r.val, by omega⟩ : Fin 8192) k :=
    funext fun a => Fin.ext (match a with
      | ⟨0, _⟩ => by show win0_6.index t (0 : Fin 3) * 1 + 1 * 0 = win0_6.index t (0 : Fin 3); omega
      | ⟨1, _⟩ => by show win0_6.index t (1 : Fin 3) * 2048 + 1 * r.val = win0_6.index t (1 : Fin 3) * 2048 + r.val; omega
      | ⟨2, _⟩ => by show win0_6.index t (2 : Fin 3) * 1024 + 1 * k.val = k.val; omega)
  rw [hi]
  refine (out_row (iblk m c 0 t) (iblk m c 1 t) (iblk m c 2 t) (iblk m c 3 t) (iblk m c 4 t) (iblk m c 5 t) r k).trans ?_
  have key : ∀ {x x' g g' bb bb' : Fin 1024 → EReal}, x = x' → g = g' → bb = bb' →
      Cert.Spec.lnK x g bb k = Cert.Spec.lnK x' g' bb' k := by
    intro _ _ _ _ _ _ h1 h2 h3; rw [h1, h2, h3]
  show _ = Cert.Spec.lnK
      (fun k' => Cert.Spec.embK (m ((c : Thread nD τ).loc main_arg0)) (m ((c : Thread nD τ).loc main_arg1))
        (m ((c : Thread nD τ).loc main_arg2)) (m ((c : Thread nD τ).loc main_arg3))
        (⟨win0_6.index t (0 : Fin 3), by omega⟩ : Fin 4) (⟨win0_6.index t (1 : Fin 3) * 2048 + r.val, by omega⟩ : Fin 8192) k')
      (fun k' => (m ((c : Thread nD τ).loc main_arg4) : S1024.Idx → EReal) (ix1 k'))
      (fun k' => (m ((c : Thread nD τ).loc main_arg5) : S1024.Idx → EReal) (ix1 k')) k
  refine key (funext fun k' => ?_) (funext fun k' => weight_blk m c t k') (funext fun k' => bias_blk m c t k')
  rw [words_blk m c t r k' ⟨win0_6.index t (0 : Fin 3), by omega⟩ ⟨win0_6.index t (1 : Fin 3) * 2048 + r.val, by omega⟩ rfl rfl,
    pos_blk m c t r k' ⟨win0_6.index t (1 : Fin 3) * 2048 + r.val, by omega⟩ rfl,
    table_blk m c t 0 k', table_blk m c t 1 k',
    ids_blk m c t r ⟨win0_6.index t (0 : Fin 3), by omega⟩ ⟨win0_6.index t (1 : Fin 3) * 2048 + r.val, by omega⟩ rfl rfl]
  rfl

end Cert.KernelIdeal.KValue

end
-- ==== Proof.KernelRun.lean ====
/-
  The kernel's run: the result array is the specified result.

  The 16 points' output blocks tile the result array [4, 8192, 1024]: the point with block index (q₀, q₁, 0) writes
  batch q₀, positions 2048·q₁ … 2048·q₁ + 2047, all columns, and every pair (q₀, q₁) with q₀, q₁ < 4 is some point's
  block index. So entry (b, s, k) is written by the point with q₀ = b and q₁ = s / 2048. Each point writes its block
  of `Spec.outK` (`KernelBlocks.lean`), and the blocks cover the array, so after the run the array is
  `Spec.outK` of the six arguments as launched. The arguments themselves are never written.
-/
import proofs.«106403_g15573551416060_cont_sun_m_498_33_alg».proof.Proof.KernelBlocks

noncomputable section

namespace Cert.KernelIdeal.KValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- An entry of the result array is in a point's output block iff each of its coordinates lies in the block's range
    on that axis: from block index × block size, for block size coordinates. -/
theorem mem_blk (t : Fin cfg0.N) (i : S4x8192x1024.Idx) :
    i ∈ ((cfg0.win 6).blk t).view.set ↔ ∀ a : Fin 3, win0_6.index t a * S1x2048x1024.size a ≤ (i a).val
      ∧ (i a).val < win0_6.index t a * S1x2048x1024.size a + S1x2048x1024.size a := by
  show i ∈ ((View.whole main_v3).slice (win0_6.rect t)).set ↔ _
  rw [View.set_slice_whole, Rect.mem_set_unit]
  exact Iff.rfl

/-- Every pair (q₀, q₁) of a batch and a block of positions is some point's output block index. -/
theorem idx_onto : ∀ (q0 q1 : Fin 4), ∃ t : Fin cfg0.N, win0_6.index t = ![q0.val, q1.val, 0] :=
  (by decide +kernel : ∀ (q0 q1 : Fin 4), ∃ t : Fin grid0.N, win0_6.index t = ![q0.val, q1.val, 0])

/-- THE BLOCKS COVER THE ARRAY: entry (b, s, k) is in the block of the point with q₀ = b and q₁ = s / 2048, because
    2048·(s / 2048) ≤ s < 2048·(s / 2048) + 2048; and every point writes its block back. -/
theorem cover (i : S4x8192x1024.Idx) :
    ∃ t : Fin cfg0.N, (cfg0.win 6).flush t = true ∧ i ∈ ((cfg0.win 6).blk t).view.set := by
  have hi0 : (i 0).val < 4 := (i 0).isLt
  have hi1 : (i 1).val < 8192 := (i 1).isLt
  have hi2 : (i 2).val < 1024 := (i 2).isLt
  obtain ⟨t, ht⟩ := idx_onto ⟨(i 0).val, hi0⟩ ⟨(i 1).val / 2048, by omega⟩
  have q0 : win0_6.index t (0 : Fin 3) = (i 0).val := congrFun ht 0
  have q1 : win0_6.index t (1 : Fin 3) = (i 1).val / 2048 := congrFun ht 1
  have q2 : win0_6.index t (2 : Fin 3) = 0 := congrFun ht 2
  refine ⟨t, flush0_6 t, ?_⟩
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 2048 ≤ (i 1).val ∧ (i 1).val < win0_6.index t (1 : Fin 3) * 2048 + 2048; omega
  | ⟨2, _⟩ => show win0_6.index t (2 : Fin 3) * 1024 ≤ (i 2).val ∧ (i 2).val < win0_6.index t (2 : Fin 3) * 1024 + 1024; omega

/-- THE RESULT ARRAY AFTER THE LAST POINT is the specified result: every point writes its block of it, and the blocks
    cover the array. -/
theorem final (c : Dev nD) : (dats m 0 c).arrAt 6 cfg0.N = result m c :=
  (dats m 0 c).arrAt_eq_of_cover 6 (result m c) (fun t _ => flushed_eq m c t) cover

/-- THE KERNEL'S RUN: from any launch memory, the run ends with the result array at `Spec.outK` of the six argument
    arrays as launched, and with the six arguments as launched. -/
theorem run : θ_run (defs (F := Ideal)) (onTc (τ := τ) (main (F := Ideal))) ⟨m, fun _ => 0, ρ⟩ fun r => ∀ c : Dev nD,
      r.2.mem ((c : Thread nD τ).loc main_v3) = Cert.Spec.outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (ValueP.run_blocks m ρ)

end Cert.KernelIdeal.KValue

end
-- ==== Proof.RefTerm.lean ====
/-
  The reference program's operations as pure functions of its arguments, stage by stage.

  The reference looks rows up with `take`, which it spells in three steps: an index below zero counts from the end
  (`wrap`: the index plus the number of rows), an index outside the table after that is marked (`inRange`: the mask
  `0 ≤ index ≤ last`), and the row is read with the index clamped into the table, a marked entry replaced by a filler
  word. The position rows are taken at the positions 0, 1, …, 8191 themselves (`posIds`), the token-type rows at the
  ids. The embedding is the word row plus the two taken rows (`emb`).

  The normalisation uses one pattern twice: the sum along the last axis, kept as a column, divided by the row length
  (`rowMean`), once for the mean of the embedding and once for the mean of its squared centred entries; then the
  centred embedding (`center`) is divided by the square root of that variance plus ε, multiplied by the weight and
  shifted by the bias (`norm`).
-/
import proofs.«106403_g15573551416060_cont_sun_m_498_33_alg».proof.ReferenceIdeal

noncomputable section

namespace Cert.ReferenceIdeal.RefValue

open Cert.ReferenceIdeal Idealize.ShloMosaic

variable {F : FTy → Type} [FloatOps F] [Facts]
open Facts₀ Facts

/-- The positions 0, 1, …, 8191 along the second axis, the same in every batch. -/
def posIds : IVec S4x8192 32 :=
  broadcastInDim S4x8192 ![0, 1] bcast_S1x8192_S4x8192_0_1
    (broadcastInDim S1x8192 ![1] bcast_S8192_S1x8192_1 (iotaInDim S8192 32 0))

/-- An index below zero counts from the end of a table of `n` rows: `idx + n` where `idx < 0`, `idx` elsewhere; the
    result carries a trailing axis of extent one, as the lookup wants its start indices. -/
def wrap (n : BitVec 32) (idx : IVec S4x8192 32) : IVec S4x8192x1 32 :=
  let v0 : IVec S4x8192 32 := broadcastInDim S4x8192 ![] bcast_S_S4x8192 (constantI S_ 32 0#32)
  let v1 : IVec S4x8192 1 := cmpi .slt idx v0
  let v2 : IVec S4x8192 32 := broadcastInDim S4x8192 ![] bcast_S_S4x8192 (constantI S_ 32 n)
  let v3 : IVec S4x8192 32 := addi idx v2
  let v4 : IVec S4x8192 32 := select v1 v3 idx
  broadcastInDim S4x8192x1 ![0, 1] bcast_S4x8192_S4x8192x1_0_1 v4

/-- The mask of the start indices that lie in the table: `0 ≤ index ≤ last`, the conjunction taken over the trailing
    axis of extent one. -/
def inRange (last : BitVec 32) (v5 : IVec S4x8192x1 32) : IVec S4x8192 1 :=
  let v6 : IVec S4x8192x1 32 := broadcastInDim S4x8192x1 ![] bcast_S_S4x8192x1 (constantI S_ 32 0#32)
  let v7 : IVec S4x8192x1 1 := cmpi .sge v5 v6
  let v8 : IVec S1x1x1 32 := broadcastInDim S1x1x1 ![2] bcast_S1_S1x1x1_2 (constantI S1 32 last)
  let v9 : IVec S4x8192x1 32 := broadcastInDim S4x8192x1 ![0, 1, 2] bcast_S1x1x1_S4x8192x1_0_1_2 v8
  let v10 : IVec S4x8192x1 1 := cmpi .sle v5 v9
  let v11 : IVec S4x8192x1 1 := andi v7 v10
  Host.reduce IntOp.andi v11 (constantI S_ 1 1#1) reducesTo_S4x8192x1_S4x8192_d2 h_S_

/-- The filler word a lookup puts where the index is outside the table. -/
def filler : FVec F S4x8192x1024 .f32 :=
  broadcastInDim S4x8192x1024 ![] bcast_S_S4x8192x1024 (constant S_ .f32 0x7FC00000#32)

/-- Rows of the position table [8192, 1024] taken at the indices `idx` [4, 8192]. -/
def takePos (tbl : FVec F S8192x1024 .f32) (idx : IVec S4x8192 32) : FVec F S4x8192x1024 .f32 :=
  let v5 : IVec S4x8192x1 32 := wrap 8192#32 idx
  let v12 : IVec S4x8192 1 := inRange 8191#32 v5
  let v13 : FVec F S4x8192x1024 .f32 := Host.gather gather_S8192x1024_S4x8192x1_S4x8192x1024_2_0_n_n_0_2_11024 tbl v5
  let v14 : IVec S4x8192x1024 1 := broadcastInDim S4x8192x1024 ![0, 1] bcast_S4x8192_S4x8192x1024_0_1 v12
  select v14 v13 filler

/-- Rows of the token-type table [2, 1024] taken at the indices `idx` [4, 8192]. -/
def takeTT (tbl : FVec F S2x1024 .f32) (idx : IVec S4x8192 32) : FVec F S4x8192x1024 .f32 :=
  let v5 : IVec S4x8192x1 32 := wrap 2#32 idx
  let v12 : IVec S4x8192 1 := inRange 1#32 v5
  let v13 : FVec F S4x8192x1024 .f32 := Host.gather gather_S2x1024_S4x8192x1_S4x8192x1024_2_0_n_n_0_2_11024 tbl v5
  let v14 : IVec S4x8192x1024 1 := broadcastInDim S4x8192x1024 ![0, 1] bcast_S4x8192_S4x8192x1024_0_1 v12
  select v14 v13 filler

/-- The embedding: the word row plus the position row plus the token-type row. -/
def emb (w : FVec F S4x8192x1024 .f32) (ids : IVec S4x8192 32) (p : FVec F S8192x1024 .f32) (tt : FVec F S2x1024 .f32) :
    FVec F S4x8192x1024 .f32 :=
  addf (addf w (takePos p posIds)) (takeTT tt ids)

/-- The sum along the last axis from the zero word, kept as a column, divided by the row length 1024. -/
def rowMean (x : FVec F S4x8192x1024 .f32) : FVec F S4x8192x1 .f32 :=
  Host.divf
    (broadcastInDim S4x8192x1 ![0, 1] bcast_S4x8192_S4x8192x1_0_1
      (Host.reduceAdd x (constant S_ .f32 0x00000000#32) reducesTo_S4x8192x1024_S4x8192_d2 h_S_))
    (broadcastInDim S4x8192x1 ![] bcast_S_S4x8192x1 (constant S_ .f32 0x44800000#32))

/-- Every entry minus the mean of its row. -/
def center (x : FVec F S4x8192x1024 .f32) : FVec F S4x8192x1024 .f32 :=
  subf x (broadcastInDim S4x8192x1024 ![0, 1, 2] bcast_S4x8192x1_S4x8192x1024_0_1_2 (rowMean x))

/-- The layer normalisation: the centred entries divided by the square root of their row's variance plus ε, times the
    weight, plus the bias. -/
def norm (x : FVec F S4x8192x1024 .f32) (g b : FVec F S1024 .f32) : FVec F S4x8192x1024 .f32 :=
  let xc : FVec F S4x8192x1024 .f32 := center x
  let v17 : FVec F S4x8192x1 .f32 := rowMean (mulf xc xc)
  let v21 : FVec F S4x8192x1 .f32 := addf v17 (broadcastInDim S4x8192x1 ![] bcast_S_S4x8192x1 (constant S_ .f32 0x2B8CBCCC#32))
  let v22 : FVec F S4x8192x1 .f32 := Host.sqrt v21
  let v23 : FVec F S4x8192x1024 .f32 := broadcastInDim S4x8192x1024 ![0, 1, 2] bcast_S4x8192x1_S4x8192x1024_0_1_2 v22
  let v24 : FVec F S4x8192x1024 .f32 := Host.divf xc v23
  let v26 : FVec F S4x8192x1024 .f32 := broadcastInDim S4x8192x1024 ![0, 1, 2] bcast_S1x1x1024_S4x8192x1024_0_1_2
    (broadcastInDim S1x1x1024 ![2] bcast_S1024_S1x1x1024_2 g)
  let v27 : FVec F S4x8192x1024 .f32 := mulf v26 v24
  let v29 : FVec F S4x8192x1024 .f32 := broadcastInDim S4x8192x1024 ![0, 1, 2] bcast_S1x1x1024_S4x8192x1024_0_1_2
    (broadcastInDim S1x1x1024 ![2] bcast_S1024_S1x1x1024_2 b)
  addf v27 v29

/-- The reference's result as one function of its six arguments. -/
def refOut (w : FVec F S4x8192x1024 .f32) (ids : IVec S4x8192 32) (p : FVec F S8192x1024 .f32) (tt : FVec F S2x1024 .f32)
    (g b : FVec F S1024 .f32) : FVec F S4x8192x1024 .f32 :=
  norm (emb w ids p tt) g b

end Cert.ReferenceIdeal.RefValue

end
-- ==== Proof.RefOps.lean ====
/-
  The reference program as a list of operations, and what the list computes from the six arguments.

  The program is a straight line of eighty whole-array operations: the three that lay out the positions 0 … 8191,
  the twenty-three of the position lookup, an addition, the twenty-three of the token-type lookup, an addition, and
  the twenty-nine of the normalisation. A lookup is written in the program as a function applied to buffers of its
  own; applying it is substituting its body, so its operations are listed here in place, over that application's
  buffers. Each operation writes one buffer that no other operation writes, and reads only buffers written earlier
  or arguments. So after the line has run, the result buffer holds the composition of the operations' functions
  along the chain of reads back to the arguments, and the arguments hold what they held at the start. That
  composition, stage by stage, is the function `RefValue.refOut`.
-/
import proofs.«106403_g15573551416060_cont_sun_m_498_33_alg».proof.Proof.RefTerm
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-- The program's eighty operations in order, each lookup's body written out where it is applied. -/
abbrev ops : List (HloOp τ sig (Elt F)) :=
  [ nullary main_v0 (iotaInDim S8192 32 0),
    unary main_v0 main_v1 (broadcastInDim S1x8192 ![1] bcast_S8192_S1x8192_1 : (⟨S8192, .i32⟩ : BufTy).Contents (Elt F) → (⟨S1x8192, .i32⟩ : BufTy).Contents (Elt F)),
    unary main_v1 main_v2 (broadcastInDim S4x8192 ![0, 1] bcast_S1x8192_S4x8192_0_1 : (⟨S1x8192, .i32⟩ : BufTy).Contents (Elt F) → (⟨S4x8192, .i32⟩ : BufTy).Contents (Elt F)),
    TRef.nullary main_call0.c (constantI S_ 32 0#32),
    TRef.unary main_call0.c main_call0.v0 (broadcastInDim S4x8192 ![] bcast_S_S4x8192),
    TRef.binary (.of main_v2) main_call0.v0 main_call0.v1 (cmpi .slt),
    TRef.nullary main_call0.c_0 (constantI S_ 32 8192#32),
    TRef.unary main_call0.c_0 main_call0.v2 (broadcastInDim S4x8192 ![] bcast_S_S4x8192),
    TRef.binary (.of main_v2) main_call0.v2 main_call0.v3 addi,
    TRef.ternary main_call0.v1 main_call0.v3 (.of main_v2) main_call0.call0.v0 select,
    TRef.unary main_call0.call0.v0 main_call0.v5 (broadcastInDim S4x8192x1 ![0, 1] bcast_S4x8192_S4x8192x1_0_1),
    TRef.nullary main_call0.c_1 (constantI S1 32 8191#32),
    TRef.nullary main_call0.c_2 (constantI S_ 32 0#32),
    TRef.unary main_call0.c_2 main_call0.v6 (broadcastInDim S4x8192x1 ![] bcast_S_S4x8192x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4x8192x1 ![0, 1, 2] bcast_S1x1x1_S4x8192x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x8192x1_S4x8192_d2 h_S_),
    TRef.binary (.of main_arg2) main_call0.v5 main_call0.v13 (fun x i => Host.gather gather_S8192x1024_S4x8192x1_S4x8192x1024_2_0_n_n_0_2_11024 x i),
    TRef.unary main_call0.v12 main_call0.v14 (broadcastInDim S4x8192x1024 ![0, 1] bcast_S4x8192_S4x8192x1024_0_1),
    TRef.nullary main_call0.cst (constant S_ .f32 0x7FC00000#32),
    TRef.unary main_call0.cst main_call0.v15 (broadcastInDim S4x8192x1024 ![] bcast_S_S4x8192x1024),
    TRef.ternary main_call0.v14 main_call0.v13 main_call0.v15 main_call0.v16 select,
    binary main_arg0 main_v3 main_v4 (addf : (⟨S4x8192x1024, .f32⟩ : BufTy).Contents (Elt F) → (⟨S4x8192x1024, .f32⟩ : BufTy).Contents (Elt F) → (⟨S4x8192x1024, .f32⟩ : BufTy).Contents (Elt F)),
    TRef.nullary main_call1.c (constantI S_ 32 0#32),
    TRef.unary main_call1.c main_call1.v0 (broadcastInDim S4x8192 ![] bcast_S_S4x8192),
    TRef.binary (.of main_arg1) main_call1.v0 main_call1.v1 (cmpi .slt),
    TRef.nullary main_call1.c_0 (constantI S_ 32 2#32),
    TRef.unary main_call1.c_0 main_call1.v2 (broadcastInDim S4x8192 ![] bcast_S_S4x8192),
    TRef.binary (.of main_arg1) main_call1.v2 main_call1.v3 addi,
    TRef.ternary main_call1.v1 main_call1.v3 (.of main_arg1) main_call1.call0.v0 select,
    TRef.unary main_call1.call0.v0 main_call1.v5 (broadcastInDim S4x8192x1 ![0, 1] bcast_S4x8192_S4x8192x1_0_1),
    TRef.nullary main_call1.c_1 (constantI S1 32 1#32),
    TRef.nullary main_call1.c_2 (constantI S_ 32 0#32),
    TRef.unary main_call1.c_2 main_call1.v6 (broadcastInDim S4x8192x1 ![] bcast_S_S4x8192x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S4x8192x1 ![0, 1, 2] bcast_S1x1x1_S4x8192x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4x8192x1_S4x8192_d2 h_S_),
    TRef.binary (.of main_arg3) main_call1.v5 main_call1.v13 (fun x i => Host.gather gather_S2x1024_S4x8192x1_S4x8192x1024_2_0_n_n_0_2_11024 x i),
    TRef.unary main_call1.v12 main_call1.v14 (broadcastInDim S4x8192x1024 ![0, 1] bcast_S4x8192_S4x8192x1024_0_1),
    TRef.nullary main_call1.cst (constant S_ .f32 0x7FC00000#32),
    TRef.unary main_call1.cst main_call1.v15 (broadcastInDim S4x8192x1024 ![] bcast_S_S4x8192x1024),
    TRef.ternary main_call1.v14 main_call1.v13 main_call1.v15 main_call1.v16 select,
    binary main_v4 main_v5 main_v6 (addf : (⟨S4x8192x1024, .f32⟩ : BufTy).Contents (Elt F) → (⟨S4x8192x1024, .f32⟩ : BufTy).Contents (Elt F) → (⟨S4x8192x1024, .f32⟩ : BufTy).Contents (Elt F)),
    nullary main_cst (constant S_ .f32 0x00000000#32),
    binary main_v6 main_cst main_v7 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    unary main_v7 main_v8 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_0 (constant S_ .f32 0x44800000#32),
    unary main_cst_0 main_v9 (broadcastInDim S4x8192x1 ![] bcast_S_S4x8192x1 : (⟨S_, .f32⟩ : BufTy).Contents (Elt F) → (⟨S4x8192x1, .f32⟩ : BufTy).Contents (Elt F)),
    binary main_v8 main_v9 main_v10 (Host.divf : (⟨S4x8192x1, .f32⟩ : BufTy).Contents (Elt F) → (⟨S4x8192x1, .f32⟩ : BufTy).Contents (Elt F) → (⟨S4x8192x1, .f32⟩ : BufTy).Contents (Elt F)),
    unary main_v10 main_v11 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v6 main_v11 main_v12 (subf : (⟨S4x8192x1024, .f32⟩ : BufTy).Contents (Elt F) → (⟨S4x8192x1024, .f32⟩ : BufTy).Contents (Elt F) → (⟨S4x8192x1024, .f32⟩ : BufTy).Contents (Elt F)),
    binary main_v12 main_v12 main_v13 (mulf : (⟨S4x8192x1024, .f32⟩ : BufTy).Contents (Elt F) → (⟨S4x8192x1024, .f32⟩ : BufTy).Contents (Elt F) → (⟨S4x8192x1024, .f32⟩ : BufTy).Contents (Elt F)),
    nullary main_cst_1 (constant S_ .f32 0x00000000#32),
    binary main_v13 main_cst_1 main_v14 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    unary main_v14 main_v15 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_2 (constant S_ .f32 0x44800000#32),
    unary main_cst_2 main_v16 (broadcastInDim S4x8192x1 ![] bcast_S_S4x8192x1 : (⟨S_, .f32⟩ : BufTy).Contents (Elt F) → (⟨S4x8192x1, .f32⟩ : BufTy).Contents (Elt F)),
    binary main_v15 main_v16 main_v17 (Host.divf : (⟨S4x8192x1, .f32⟩ : BufTy).Contents (Elt F) → (⟨S4x8192x1, .f32⟩ : BufTy).Contents (Elt F) → (⟨S4x8192x1, .f32⟩ : BufTy).Contents (Elt F)),
    unary main_v10 main_v18 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v6 main_v18 main_v19 (subf : (⟨S4x8192x1024, .f32⟩ : BufTy).Contents (Elt F) → (⟨S4x8192x1024, .f32⟩ : BufTy).Contents (Elt F) → (⟨S4x8192x1024, .f32⟩ : BufTy).Contents (Elt F)),
    nullary main_cst_3 (constant S_ .f32 0x2B8CBCCC#32),
    unary main_cst_3 main_v20 (broadcastInDim S4x8192x1 ![] bcast_S_S4x8192x1 : (⟨S_, .f32⟩ : BufTy).Contents (Elt F) → (⟨S4x8192x1, .f32⟩ : BufTy).Contents (Elt F)),
    binary main_v17 main_v20 main_v21 (addf : (⟨S4x8192x1, .f32⟩ : BufTy).Contents (Elt F) → (⟨S4x8192x1, .f32⟩ : BufTy).Contents (Elt F) → (⟨S4x8192x1, .f32⟩ : BufTy).Contents (Elt F)),
    unary main_v21 main_v22 (Host.sqrt : (⟨S4x8192x1, .f32⟩ : BufTy).Contents (Elt F) → (⟨S4x8192x1, .f32⟩ : BufTy).Contents (Elt F)),
    unary main_v22 main_v23 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v19 main_v23 main_v24 (Host.divf : (⟨S4x8192x1024, .f32⟩ : BufTy).Contents (Elt F) → (⟨S4x8192x1024, .f32⟩ : BufTy).Contents (Elt F) → (⟨S4x8192x1024, .f32⟩ : BufTy).Contents (Elt F)),
    unary main_arg4 main_v25 (broadcastInDim S1x1x1024 ![2] bcast_S1024_S1x1x1024_2 : (⟨S1024, .f32⟩ : BufTy).Contents (Elt F) → (⟨S1x1x1024, .f32⟩ : BufTy).Contents (Elt F)),
    unary main_v25 main_v26 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    binary main_v26 main_v24 main_v27 (mulf : (⟨S4x8192x1024, .f32⟩ : BufTy).Contents (Elt F) → (⟨S4x8192x1024, .f32⟩ : BufTy).Contents (Elt F) → (⟨S4x8192x1024, .f32⟩ : BufTy).Contents (Elt F)),
    unary main_arg5 main_v28 (broadcastInDim S1x1x1024 ![2] bcast_S1024_S1x1x1024_2 : (⟨S1024, .f32⟩ : BufTy).Contents (Elt F) → (⟨S1x1x1024, .f32⟩ : BufTy).Contents (Elt F)),
    unary main_v28 main_v29 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    binary main_v27 main_v29 main_v30 (addf : (⟨S4x8192x1024, .f32⟩ : BufTy).Contents (Elt F) → (⟨S4x8192x1024, .f32⟩ : BufTy).Contents (Elt F) → (⟨S4x8192x1024, .f32⟩ : BufTy).Contents (Elt F)) ]

/-- The program is that straight line: applying a lookup is substituting its body, and the buffers of the
    application are the fields of its record, so both sides unfold to the same chain of single steps. -/
theorem main_eq (c : Dev nD) : main (F := F) c = seq ops := rfl

/-- The program's signature scopes no buffer … -/
theorem scopedRefs_eq : (Finset.univ.filter fun b : Ref sig .tc => b.isScoped) = ∅ := by decide
/-- … and no semaphore (it has none). -/
theorem scopedSems_eq : (Finset.univ.filter fun sm : SemLoc sig => sm.isScoped .tc) = ∅ := by decide

/-- Every operation touches only buffers of the one core that runs the line: one fact per operation, in order,
    by how many buffers it reads. -/
theorem ops_sub : (ops : List (HloOp τ sig (Elt F))).Forall fun op => op.bufs ⊆ tcRefs τ sig :=
  ⟨nullary_bufs_sub .., unary_bufs_sub .., unary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., binary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., binary_bufs_sub .., nullary_bufs_sub .., binary_bufs_sub .., unary_bufs_sub ..,
    nullary_bufs_sub .., unary_bufs_sub .., binary_bufs_sub .., unary_bufs_sub .., binary_bufs_sub .., binary_bufs_sub ..,
    nullary_bufs_sub .., binary_bufs_sub .., unary_bufs_sub .., nullary_bufs_sub .., unary_bufs_sub .., binary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub ..⟩

/-- What the result buffer holds after the line, from any contents `V`. Read backwards from the last operation:
    the buffer an operation writes holds its function of the buffers it reads, and a buffer it does not write holds
    what it held before; eighty steps of that leave the composition of the operations' functions over the six
    arguments' contents. (A lookup's operations carry their values to and from its buffers through a change of type
    that is the identity here, since each buffer's declared type is the value's.) Stage by stage that composition is
    `RefValue.refOut`: the positions, the two lookups (wrap, mask, read, select), the two additions, and the
    normalisation (mean, centred value, variance, square root, quotient, weight, bias). -/
theorem out_eq (V : Valuation τ sig (Elt F)) :
    after ops V (main_v30 : DevRef τ sig) = RefValue.refOut (V (main_arg0 : DevRef τ sig)) (V (main_arg1 : DevRef τ sig)) (V (main_arg2 : DevRef τ sig)) (V (main_arg3 : DevRef τ sig)) (V (main_arg4 : DevRef τ sig)) (V (main_arg5 : DevRef τ sig)) := by
  after_results_simp
  simp only [cast_eq, RefValue.refOut, RefValue.norm, RefValue.emb, RefValue.takePos, RefValue.takeTT, RefValue.wrap,
    RefValue.inRange, RefValue.filler, RefValue.posIds, RefValue.center, RefValue.rowMean]

/-! No operation writes an argument's buffer: each writes the one buffer named as its result, and none of those
    eighty is an argument. A buffer that no operation of a line writes holds after the line what it held before.
    For each argument: the set an operation writes is the singleton of its result buffer, so "not written by any
    operation" is eighty inequalities between buffers, each decided by comparing the two buffers' places in the
    signature. -/
theorem arg0_eq (V : Valuation τ sig (Elt F)) :
    after ops V (main_arg0 : DevRef τ sig) = V (main_arg0 : DevRef τ sig) :=
  after_of_forall_not_mem (b := Proc.devRef .tc main_arg0) _ _ (List.forall_iff_forall_mem.mp (by
    simp only [ops, List.Forall, nullary_writes, unary_writes, binary_writes, ternary_writes, Finset.mem_singleton]
    repeat' apply And.intro
    all_goals exact devRef_ne_of_ne (by decide)))
theorem arg1_eq (V : Valuation τ sig (Elt F)) :
    after ops V (main_arg1 : DevRef τ sig) = V (main_arg1 : DevRef τ sig) :=
  after_of_forall_not_mem (b := Proc.devRef .tc main_arg1) _ _ (List.forall_iff_forall_mem.mp (by
    simp only [ops, List.Forall, nullary_writes, unary_writes, binary_writes, ternary_writes, Finset.mem_singleton]
    repeat' apply And.intro
    all_goals exact devRef_ne_of_ne (by decide)))
theorem arg2_eq (V : Valuation τ sig (Elt F)) :
    after ops V (main_arg2 : DevRef τ sig) = V (main_arg2 : DevRef τ sig) :=
  after_of_forall_not_mem (b := Proc.devRef .tc main_arg2) _ _ (List.forall_iff_forall_mem.mp (by
    simp only [ops, List.Forall, nullary_writes, unary_writes, binary_writes, ternary_writes, Finset.mem_singleton]
    repeat' apply And.intro
    all_goals exact devRef_ne_of_ne (by decide)))
theorem arg3_eq (V : Valuation τ sig (Elt F)) :
    after ops V (main_arg3 : DevRef τ sig) = V (main_arg3 : DevRef τ sig) :=
  after_of_forall_not_mem (b := Proc.devRef .tc main_arg3) _ _ (List.forall_iff_forall_mem.mp (by
    simp only [ops, List.Forall, nullary_writes, unary_writes, binary_writes, ternary_writes, Finset.mem_singleton]
    repeat' apply And.intro
    all_goals exact devRef_ne_of_ne (by decide)))
theorem arg4_eq (V : Valuation τ sig (Elt F)) :
    after ops V (main_arg4 : DevRef τ sig) = V (main_arg4 : DevRef τ sig) :=
  after_of_forall_not_mem (b := Proc.devRef .tc main_arg4) _ _ (List.forall_iff_forall_mem.mp (by
    simp only [ops, List.Forall, nullary_writes, unary_writes, binary_writes, ternary_writes, Finset.mem_singleton]
    repeat' apply And.intro
    all_goals exact devRef_ne_of_ne (by decide)))
theorem arg5_eq (V : Valuation τ sig (Elt F)) :
    after ops V (main_arg5 : DevRef τ sig) = V (main_arg5 : DevRef τ sig) :=
  after_of_forall_not_mem (b := Proc.devRef .tc main_arg5) _ _ (List.forall_iff_forall_mem.mp (by
    simp only [ops, List.Forall, nullary_writes, unary_writes, binary_writes, ternary_writes, Finset.mem_singleton]
    repeat' apply And.intro
    all_goals exact devRef_ne_of_ne (by decide)))

end Cert.ReferenceIdeal.RefRun

end
-- ==== Proof.RefRun.lean ====
/-
  The reference program's run, read back as one function of its six arguments.

  The program is a straight line of whole-array operations (listed in Proof/RefOps.lean). A straight line run from
  any memory terminates, and ends with every buffer at the fold of the operations over what the buffers held at the
  launch. Read at the result buffer that fold is the function `RefValue.refOut` of the six arguments' launch
  contents, and read at an argument's buffer it is what the argument held: no operation writes an argument.
-/
import proofs.«106403_g15573551416060_cont_sun_m_498_33_alg».proof.Proof.RefOps

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-- Every operation determines the contents of the buffer it writes (none leaves them open), one fact per
    operation. -/
theorem ops_fresh : ∀ op ∈ (ops : List (HloOp τ sig (Elt F))), op.fresh = ∅ :=
  List.forall_iff_forall_mem.mp (by simp only [ops, List.Forall]; repeat' constructor)

/-- On every device, for any float values, from any memory with zero counters: every weakly fair execution of the
    reference program terminates with the result buffer at `RefValue.refOut` of the six arguments as launched, and
    the arguments unchanged. The run of the straight line gives each buffer of device `c` at the fold of the
    operations over `c`'s launch contents; `out_eq` reads the fold at the result and `argK_eq` at each argument,
    both taken at the launch contents, where the contents of a buffer are the memory at that buffer's location. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v30) = RefValue.refOut (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (defs (F := F)) _ _).mono
    (fun _ h c => ⟨(h c main_v30).trans (out_eq (F := F) (launchContents m c)),
      (h c main_arg0).trans (arg0_eq (F := F) (launchContents m c)),
      (h c main_arg1).trans (arg1_eq (F := F) (launchContents m c)),
      (h c main_arg2).trans (arg2_eq (F := F) (launchContents m c)),
      (h c main_arg3).trans (arg3_eq (F := F) (launchContents m c)),
      (h c main_arg4).trans (arg4_eq (F := F) (launchContents m c)),
      (h c main_arg5).trans (arg5_eq (F := F) (launchContents m c))⟩)
    (run_seq scopedRefs_eq scopedSems_eq (defs (F := F)) (main (F := F)) (fun _ => ops) main_eq (fun _ => ops_sub) m ρ (fun _ => ops_fresh))

end Cert.ReferenceIdeal.RefRun

end
-- ==== Proof.LibTakeRows.lean ====
/-
  ROWS OF A TABLE TAKEN AT AN ARRAY OF INDICES, READ AT AN INDEX.

  What `table[idx]` of a table of rows `table : [N, D]` at an integer array `idx : [A, B]` lowers to: a
  `stablehlo.gather` with offset_dims `[2]`, collapsed_slice_dims `[0]`, start_index_map `[0]`, index_vector_dim 2 and
  slice_sizes `[1, D]`, over the indices carried as `[A, B, 1]`. Entry `(a, b, k)` of the result `[A, B, D]` is entry `k`
  of the row the start index `idx[a, b, 0]` names, that index read as a signed integer and clamped into `[0, N - 1]`, as
  the gather clamps every start index so that its slice fits in the operand.

  The operand index the gather reads is, on each operand axis, a clamped start plus a batching coordinate plus an offset
  coordinate. On the row axis (collapsed, named by the start index map) only the start is there; on the column axis
  (kept, not named by the start index map) only the offset is there, and it is the result's last coordinate.
-/
import Idealize.ShloMosaic.Lib.ValueIdx

noncomputable section

namespace Cert.LibTakeRows

open Idealize.ShloMosaic Idealize.ShloMosaic.ValueIdx

variable {α : Type}

/-- The dimension numbers of a row lookup: operand `[N, D]`, start indices `[A, B, 1]`, result `[A, B, D]`; their
    conditions `wf` are decided on a program's literal shapes. -/
abbrev takeRowsDims (N D A B : Nat)
    (wf : GatherDims.WF ⟨2, ![N, D]⟩ ⟨3, ![A, B, 1]⟩ ⟨3, ![A, B, D]⟩ [2] [0] [] [0] [] 2 ![1, D]) :
    GatherDims ⟨2, ![N, D]⟩ ⟨3, ![A, B, 1]⟩ ⟨3, ![A, B, D]⟩ where
  offsetDims := [2]
  collapsedSliceDims := [0]
  operandBatchingDims := []
  startIndicesBatchingDims := []
  startIndexMap := [0]
  indexVectorDim := 2
  sliceSizes := ![1, D]
  wf := wf

/-- THE ROW LOOKUP READ AT `(a, b, k)`: column `k` of the row the start index `idx[a, b, 0]` names, read signed and
    clamped into `[0, N - 1]`. -/
theorem gather_takeRows_apply {N D A B w : Nat} (hN : 0 < N)
    (wf : GatherDims.WF ⟨2, ![N, D]⟩ ⟨3, ![A, B, 1]⟩ ⟨3, ![A, B, D]⟩ [2] [0] [] [0] [] 2 ![1, D])
    (x : (⟨2, ![N, D]⟩ : Shape).Idx → α) (idx : IVec ⟨3, ![A, B, 1]⟩ w) (a : Fin A) (b : Fin B) (k : Fin D) :
    Host.gather (takeRowsDims N D A B wf) x idx (ix3 a b k)
      = x (ix2 ⟨min (idx (ix3 a b (0 : Fin 1))).toInt.toNat (N - 1), by omega⟩ k) := by
  unfold Host.gather
  congr 1
  funext c
  refine Fin.ext ?_
  show (takeRowsDims N D A B wf).start (ix3 a b k) idx c + (takeRowsDims N D A B wf).batchCoord (ix3 a b k) c
      + (takeRowsDims N D A B wf).offCoord (ix3 a b k) c = _
  -- no operand axis is a batching axis
  rw [GatherDims.batchCoord_eq_zero _ _ _ List.not_mem_nil, Nat.add_zero]
  match c with
  | ⟨0, h0⟩ =>
    -- the row axis: collapsed, so no offset; named by the start index map, so the start is the clamped index
    have hm : (⟨0, h0⟩ : Fin 2) ∈ (takeRowsDims N D A B wf).startIndexMap := List.mem_singleton.mpr rfl
    rw [GatherDims.offCoord_eq_zero _ _ _ (fun h => ((GatherDims.mem_sKept _ _).mp h).1 (List.mem_singleton.mpr rfl)),
      Nat.add_zero]
    unfold GatherDims.start
    rw [dif_pos hm]
    -- the start index is read at the result's two batch coordinates and 0 on the trailing axis
    have hsi : (takeRowsDims N D A B wf).siIdx (ix3 a b k)
        ⟨List.idxOf (⟨0, h0⟩ : Fin 2) (takeRowsDims N D A B wf).startIndexMap, List.idxOf_lt_length_iff.2 hm⟩
        = ix3 a b (0 : Fin 1) := by
      funext e; refine Fin.ext ?_
      match e with
      | ⟨0, _⟩ => rfl
      | ⟨1, _⟩ => rfl
      | ⟨2, _⟩ => rfl
    rw [hsi]
    rfl
  | ⟨1, h1⟩ =>
    -- the column axis: not named by the start index map, so the start is 0; kept, so the offset is the result's
    -- coordinate on its one offset axis, the last
    have hm : ¬(⟨1, h1⟩ : Fin 2) ∈ (takeRowsDims N D A B wf).startIndexMap :=
      fun h => Nat.one_ne_zero (congrArg Fin.val (List.mem_singleton.mp h))
    have hk : (⟨1, h1⟩ : Fin 2) ∈ (takeRowsDims N D A B wf).sKept :=
      (GatherDims.mem_sKept _ _).mpr
        ⟨fun h => Nat.one_ne_zero (congrArg Fin.val (List.mem_singleton.mp h)), List.not_mem_nil⟩
    unfold GatherDims.start GatherDims.offCoord
    rw [dif_neg hm, dif_pos hk, Nat.zero_add]
    rfl

end Cert.LibTakeRows

end
-- ==== Proof.RefTake.lean ====
/-
  The reference's two row lookups, read at an index.

  A lookup normalises its indices in three steps and then reads. An index below zero counts from the end (the index plus
  the number of rows); an index that is then still outside the table is marked by a mask (`0 ≤ index ≤ last`); the row is
  read with the index clamped into the table, and a marked entry is replaced by a filler word.

  Here the indices are never outside the table. The position rows are taken at the positions `0, 1, …, 8191` themselves,
  and position `s` is the word of the natural number `s < 8192`: not negative, at most the last row `8191`, and its clamp is
  `s`. The token-type rows are taken at ids that are the word 0 or the word 1: not negative, at most the last row 1, and the
  clamp of 0 is row 0, of 1 row 1. So neither wrap changes its index, both masks are 1 everywhere, the filler is never
  read, and each lookup is the table's row at the index.
-/
import proofs.«106403_g15573551416060_cont_sun_m_498_33_alg».proof.Proof.Spec
import proofs.«106403_g15573551416060_cont_sun_m_498_33_alg».proof.Proof.RefTerm
import proofs.«106403_g15573551416060_cont_sun_m_498_33_alg».proof.Proof.LibTakeRows
import Idealize.ShloMosaic.Lib.Pipeline.Value
import Idealize.ShloMosaic.Lib.Affine

noncomputable section

namespace Cert.ReferenceIdeal.RefRead

open Cert.ReferenceIdeal Cert.ReferenceIdeal.RefValue Idealize.ShloMosaic Idealize.ShloMosaic.ValueIdx

/-! ## Words: a small natural number, read signed -/

/-- The word of a natural number below 8192 reads, signed, as that number: it is far below `2³¹`. -/
theorem toInt_ofNat_small (n : Nat) (h : n < 8192) : (BitVec.ofNat 32 n).toInt = (n : Int) := by
  have hn : (BitVec.ofNat 32 n).toNat = n := by rw [BitVec.toNat_ofNat]; omega
  rw [BitVec.toInt_eq_toNat_of_lt (by omega), hn]

/-- The zero word reads as 0. -/
theorem toInt_zero32 : (0#32 : BitVec 32).toInt = 0 := by decide

/-! ## A conjunction of ones is one -/

/-- A left fold by `and` from 1 over one-bit words that are all 1 is 1. -/
theorem foldl_andi_all_one {ι : Type} (f : ι → BitVec 1) (hf : ∀ n, f n = 1#1) :
    ∀ l : List ι, l.foldl (fun r n => IntOp.andi r (f n)) 1#1 = 1#1
  | [] => rfl
  | a :: l => by
    show l.foldl (fun r n => IntOp.andi r (f n)) (IntOp.andi 1#1 (f a)) = 1#1
    rw [hf a, show IntOp.andi (1#1 : BitVec 1) 1#1 = 1#1 from by decide]
    exact foldl_andi_all_one f hf l

/-- A reduction by `and` from the initial word 1 of an array of one-bit words that are all 1 is 1 at every index. -/
theorem reduce_andi_all_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  unfold Host.reduce
  rw [hinit]
  exact foldl_andi_all_one (fun n => x (s.rowMajor.symm n)) (fun n => hx _) _

variable [Facts]
open Facts₀ Facts

/-! ## The positions -/

/-- Entry `(b, s)` of the position indices is the word of `s`: the counter along an axis of 8192, carried to `[1, 8192]` and
    then repeated over the 4 batches. -/
theorem posIds_apply (b : Fin 4) (s : Fin 8192) : posIds (ix2 b s) = BitVec.ofNat 32 s.val := by
  unfold posIds
  -- the outer broadcast reads the `[1, 8192]` array at (0, s) …
  refine (broadcastInDim_apply _ _ _ (ix2 b s) (ix2 (0 : Fin 1) s) (fun a => ?_)).trans ?_
  · match a with
    | ⟨0, _⟩ => rfl
    | ⟨1, _⟩ => rfl
  -- … the inner one reads the counter at s
  refine (broadcastInDim_apply _ _ _ (ix2 (0 : Fin 1) s) (ix1 s) (fun a => ?_)).trans ?_
  · match a with
    | ⟨0, _⟩ => rfl
  rfl

/-! ## The wrap -/

/-- A wrap leaves an index that is not negative: the condition `index < 0` of its select fails. -/
theorem wrap_apply_of_nonneg (n : BitVec 32) (idx : IVec S4x8192 32) (b : Fin 4) (s : Fin 8192)
    (h : 0 ≤ (idx (ix2 b s)).toInt) : wrap n idx (ix3 b s (0 : Fin 1)) = idx (ix2 b s) := by
  unfold wrap
  -- the trailing axis of extent one is new: entry (b, s, 0) is entry (b, s) of the select
  refine (broadcastInDim_apply _ _ _ (ix3 b s (0 : Fin 1)) (ix2 b s) (fun a => ?_)).trans ?_
  · match a with
    | ⟨0, _⟩ => rfl
    | ⟨1, _⟩ => rfl
  show Scalar.select (IntOp.cmpi .slt (idx (ix2 b s)) 0#32) (IntOp.addi (idx (ix2 b s)) n) (idx (ix2 b s)) = idx (ix2 b s)
  have hc : IntOp.cmpi .slt (idx (ix2 b s)) 0#32 = 0#1 :=
    eq_zero_of_ne_one (fun h1 => by
      have h2 := IntOp.cmpi_slt.mp h1
      rw [toInt_zero32] at h2
      omega)
  rw [hc, select_zero]

/-! ## The mask -/

/-- The mask of start indices that all lie in `[0, last]` is 1 everywhere: at each entry both comparisons hold, so their
    conjunction is 1, and so is the conjunction of those along the trailing axis. -/
theorem inRange_eq_one (last : BitVec 32) (v5 : IVec S4x8192x1 32)
    (h : ∀ i, 0 ≤ (v5 i).toInt ∧ (v5 i).toInt ≤ last.toInt) (j : S4x8192.Idx) : inRange last v5 j = 1#1 := by
  unfold inRange
  refine reduce_andi_all_one _ _ _ _ rfl (fun i => ?_) j
  show IntOp.andi (IntOp.cmpi .sge (v5 i) 0#32) (IntOp.cmpi .sle (v5 i) last) = 1#1
  rw [IntOp.andi_eq_one, IntOp.cmpi_sge, IntOp.cmpi_sle, toInt_zero32]
  exact h i

/-! ## The position lookup -/

/-- The wrapped position indices lie in `[0, 8191]`: entry `(b, s, 0)` is the word of `s < 8192`. -/
theorem wrap_posIds_range (i : S4x8192x1.Idx) :
    0 ≤ (wrap 8192#32 posIds i).toInt ∧ (wrap 8192#32 posIds i).toInt ≤ (8191#32 : BitVec 32).toInt := by
  obtain ⟨b, s, z, rfl⟩ : ∃ (b : Fin 4) (s : Fin 8192) (z : Fin 1), i = ix3 b s z := ⟨i 0, i 1, i 2, eq_ix3 i⟩
  obtain rfl : z = 0 := Subsingleton.elim _ _
  have h0 : (posIds (ix2 b s)).toInt = (s.val : Int) := by rw [posIds_apply, toInt_ofNat_small _ s.isLt]
  rw [wrap_apply_of_nonneg _ _ _ _ (by rw [h0]; omega), h0, show (8191#32 : BitVec 32).toInt = 8191 from by decide]
  have := s.isLt
  omega

/-- THE POSITION LOOKUP READ AT `(b, s, k)`: entry `(s, k)` of the position table. -/
theorem takePos_apply (p : FVec Ideal S8192x1024 .f32) (b : Fin 4) (s : Fin 8192) (k : Fin 1024) :
    takePos (F := Ideal) p posIds (ix3 b s k) = p (ix2 s k) := by
  unfold takePos
  rw [select_apply]
  -- the mask is 1 at (b, s), so the select takes the gathered entry
  have hm : broadcastInDim S4x8192x1024 ![0, 1] bcast_S4x8192_S4x8192x1024_0_1 (inRange 8191#32 (wrap 8192#32 posIds))
      (ix3 b s k) = 1#1 :=
    (broadcastInDim_apply _ _ _ (ix3 b s k) (ix2 b s) (fun a => by
      match a with
      | ⟨0, _⟩ => rfl
      | ⟨1, _⟩ => rfl)).trans (inRange_eq_one _ _ wrap_posIds_range _)
  rw [hm, select_one]
  -- the gathered entry is the table at the clamped start index, and the clamp of s into [0, 8191] is s
  refine (Cert.LibTakeRows.gather_takeRows_apply (by decide)
    gather_S8192x1024_S4x8192x1_S4x8192x1024_2_0_n_n_0_2_11024_wf p (wrap 8192#32 posIds) b s k).trans ?_
  have h0 : (posIds (ix2 b s)).toInt = (s.val : Int) := by rw [posIds_apply, toInt_ofNat_small _ s.isLt]
  have hrow : min (wrap 8192#32 posIds (ix3 b s (0 : Fin 1))).toInt.toNat (8192 - 1) = s.val := by
    rw [wrap_apply_of_nonneg _ _ _ _ (by rw [h0]; omega), h0]
    have := s.isLt
    omega
  exact congrArg (fun r : Fin 8192 => p (ix2 r k)) (Fin.ext hrow)

/-! ## The token-type lookup -/

/-- The words 0 and 1 read, signed, as 0 and 1. -/
theorem toInt_one32 : (1#32 : BitVec 32).toInt = 1 := by decide

/-- An id that is the word 0 or the word 1 reads, signed, as a number in `[0, 1]`. -/
theorem id_range {v : BitVec 32} (hv : v = 0#32 ∨ v = 1#32) : 0 ≤ v.toInt ∧ v.toInt ≤ 1 := by
  rcases hv with h | h
  · rw [h, toInt_zero32]; omega
  · rw [h, toInt_one32]; omega

/-- The clamp into `[0, 1]` of an id that is the word 0 or the word 1 is the table row the id names. -/
theorem id_clamp {v : BitVec 32} (hv : v = 0#32 ∨ v = 1#32) : min v.toInt.toNat (2 - 1) = (Cert.Spec.row v).val := by
  rcases hv with h | h
  · rw [h]; decide
  · rw [h]; decide

/-- The wrapped ids lie in `[0, 1]` when every id is the word 0 or the word 1. -/
theorem wrap_ids_range (ids : IVec S4x8192 32) (hids : Cert.Spec.IdsOk ids) (i : S4x8192x1.Idx) :
    0 ≤ (wrap 2#32 ids i).toInt ∧ (wrap 2#32 ids i).toInt ≤ (1#32 : BitVec 32).toInt := by
  obtain ⟨b, s, z, rfl⟩ : ∃ (b : Fin 4) (s : Fin 8192) (z : Fin 1), i = ix3 b s z := ⟨i 0, i 1, i 2, eq_ix3 i⟩
  obtain rfl : z = 0 := Subsingleton.elim _ _
  have hr := id_range (hids (ix2 b s))
  rw [wrap_apply_of_nonneg _ _ _ _ hr.1, toInt_one32]
  exact hr

/-- THE TOKEN-TYPE LOOKUP READ AT `(b, s, k)`, every id the word 0 or the word 1: entry `k` of the row the id at `(b, s)`
    names. -/
theorem takeTT_apply (tt : FVec Ideal S2x1024 .f32) (ids : IVec S4x8192 32) (hids : Cert.Spec.IdsOk ids)
    (b : Fin 4) (s : Fin 8192) (k : Fin 1024) :
    takeTT (F := Ideal) tt ids (ix3 b s k) = tt (ix2 (Cert.Spec.row (ids (ix2 b s))) k) := by
  unfold takeTT
  rw [select_apply]
  -- the mask is 1 at (b, s), so the select takes the gathered entry
  have hm : broadcastInDim S4x8192x1024 ![0, 1] bcast_S4x8192_S4x8192x1024_0_1 (inRange 1#32 (wrap 2#32 ids))
      (ix3 b s k) = 1#1 :=
    (broadcastInDim_apply _ _ _ (ix3 b s k) (ix2 b s) (fun a => by
      match a with
      | ⟨0, _⟩ => rfl
      | ⟨1, _⟩ => rfl)).trans (inRange_eq_one _ _ (wrap_ids_range ids hids) _)
  rw [hm, select_one]
  -- the gathered entry is the table at the clamped start index, and the clamp of the id into [0, 1] is its row
  refine (Cert.LibTakeRows.gather_takeRows_apply (by decide)
    gather_S2x1024_S4x8192x1_S4x8192x1024_2_0_n_n_0_2_11024_wf tt (wrap 2#32 ids) b s k).trans ?_
  have hrow : min (wrap 2#32 ids (ix3 b s (0 : Fin 1))).toInt.toNat (2 - 1) = (Cert.Spec.row (ids (ix2 b s))).val := by
    rw [wrap_apply_of_nonneg _ _ _ _ (id_range (hids (ix2 b s))).1]
    exact id_clamp (hids (ix2 b s))
  exact congrArg (fun r : Fin 2 => tt (ix2 r k)) (Fin.ext hrow)

/-! ## The embedding -/

/-- THE REFERENCE'S EMBEDDING READ AT `(b, s, k)`, every id the word 0 or the word 1: the word entry plus entry `(s, k)` of
    the position table plus entry `k` of the token-type row the id at `(b, s)` names. -/
theorem emb_apply (w : FVec Ideal S4x8192x1024 .f32) (ids : IVec S4x8192 32) (p : FVec Ideal S8192x1024 .f32)
    (tt : FVec Ideal S2x1024 .f32) (hids : Cert.Spec.IdsOk ids) (b : Fin 4) (s : Fin 8192) (k : Fin 1024) :
    RefValue.emb (F := Ideal) w ids p tt (ix3 b s k) = Cert.Spec.embR w ids p tt b s k := by
  unfold RefValue.emb Cert.Spec.embR
  rw [addf_apply, addf_apply, takePos_apply, takeTT_apply _ _ hids]

end Cert.ReferenceIdeal.RefRead

end
-- ==== Proof.RefNorm.lean ====
/-
  The reference's normalisation read at one index.

  Entry (n, s, c) of the normalised array depends on row (n, s) of the array alone. Three readings give it.
  * The sum along the last axis, taken from the zero word, is the plain sum of the row: `0 + ∑ₖ x(n,s,k) = ∑ₖ x(n,s,k)`.
    Kept as a column and divided by the row length it is the row's mean, `μ = (∑ₖ x(n,s,k)) / 1024`.
  * The centred array subtracts from each entry the mean of its row, the column of means read at (n, s, 0):
    `x(n,s,c) - μ`.
  * The same mean pattern applied to the squared centred entries is the row's variance,
    `σ² = (∑ₖ (x(n,s,k) - μ)²) / 1024`; the result is `g(c) · ((x(n,s,c) - μ) / √(σ² + ε)) + b(c)`, the weight and the
    bias each stretched from a vector of 1024 entries to the whole array, so that entry (n, s, c) of either is entry c.
  Every step is an equation between extended reals with no side condition: the only law used is `0 + a = a`.
-/
import proofs.«106403_g15573551416060_cont_sun_m_498_33_alg».proof.Proof.Spec
import proofs.«106403_g15573551416060_cont_sun_m_498_33_alg».proof.Proof.RefTerm
import Idealize.ShloMosaic.Lib.IdealHost
import Idealize.ShloMosaic.Lib.Pipeline.Value

noncomputable section

open scoped BigOperators

namespace Cert.ReferenceIdeal.RefRead

open Cert.ReferenceIdeal Idealize.ShloMosaic Idealize.ShloMosaic.ValueIdx

variable [Facts]
open Facts₀ Facts

/-! ## The broadcasts, each read at an index -/

/-- A [4, 8192] array kept as a column [4, 8192, 1]: entry (n, s, u) is entry (n, s). -/
theorem keep_apply {α : Type} (y : S4x8192.Idx → α) (n : Fin 4) (s : Fin 8192) (u : Fin 1) :
    broadcastInDim S4x8192x1 ![0, 1] bcast_S4x8192_S4x8192x1_0_1 y (ix3 n s u) = y (ix2 n s) :=
  broadcastInDim_apply _ _ y (ix3 n s u) (ix2 n s) (fun a => by match a with | ⟨0, _⟩ => rfl | ⟨1, _⟩ => rfl)

/-- A column [4, 8192, 1] stretched along the last axis to [4, 8192, 1024]: entry (n, s, c) is entry (n, s, 0). -/
theorem stretch_apply {α : Type} (y : S4x8192x1.Idx → α) (n : Fin 4) (s : Fin 8192) (c : Fin 1024) :
    broadcastInDim S4x8192x1024 ![0, 1, 2] bcast_S4x8192x1_S4x8192x1024_0_1_2 y (ix3 n s c) = y (ix3 n s (0 : Fin 1)) :=
  broadcastInDim_apply _ _ y (ix3 n s c) (ix3 n s (0 : Fin 1))
    (fun a => by match a with | ⟨0, _⟩ => rfl | ⟨1, _⟩ => rfl | ⟨2, _⟩ => rfl)

/-- A vector of 1024 entries laid along the last axis of [1, 1, 1024] and then stretched over the first two axes to
    [4, 8192, 1024]: entry (n, s, c) is entry c of the vector. -/
theorem perColumn_apply {α : Type} (v : S1024.Idx → α) (n : Fin 4) (s : Fin 8192) (c : Fin 1024) :
    broadcastInDim S4x8192x1024 ![0, 1, 2] bcast_S1x1x1024_S4x8192x1024_0_1_2
      (broadcastInDim S1x1x1024 ![2] bcast_S1024_S1x1x1024_2 v) (ix3 n s c) = v (ix1 c) :=
  (broadcastInDim_apply _ _ _ (ix3 n s c) (ix3 (0 : Fin 1) (0 : Fin 1) c)
    (fun a => by match a with | ⟨0, _⟩ => rfl | ⟨1, _⟩ => rfl | ⟨2, _⟩ => rfl)).trans
  (broadcastInDim_apply _ _ v (ix3 (0 : Fin 1) (0 : Fin 1) c) (ix1 c) (fun a => by match a with | ⟨0, _⟩ => rfl))

/-- The host's square root at an index is the square root of the entry. -/
theorem hostSqrt_apply {t : Shape} {φ : FTy} (a : FVec Ideal t φ) (i : t.Idx) :
    Host.sqrt (F := Ideal) a i = Ideal.sqrt (a i) := rfl

/-! ## The mean of a row -/

/-- The sum along the last axis from the zero word, at (n, s): the sum of row (n, s). The initial value is the real
    number zero, and `0 + a = a`; the index the sum inserts at position 2 of (n, s) is (n, s, k). -/
theorem rowSum_apply (x : FVec Ideal S4x8192x1024 .f32) (n : Fin 4) (s : Fin 8192) :
    Host.reduceAdd (F := Ideal) x (constant (F := Ideal) S_ .f32 0x00000000#32) reducesTo_S4x8192x1024_S4x8192_d2 h_S_ (ix2 n s)
      = ∑ k : Fin 1024, x (ix3 n s k) := by
  rw [hostReduceAdd_apply, Ideal.hostReduceAdd_single reducesTo_S4x8192x1024_S4x8192_d2 (by decide), constant_apply,
    Ideal.ofBits_zero_f32, zero_add]
  refine Finset.sum_congr rfl fun k _ => ?_
  exact congrArg x (funext fun a => Fin.ext (by match a with | ⟨0, _⟩ => rfl | ⟨1, _⟩ => rfl | ⟨2, _⟩ => rfl))

/-- The column of row means at (n, s, u) is the mean of row (n, s): its sum divided by the row length. -/
theorem rowMean_apply (x : FVec Ideal S4x8192x1024 .f32) (n : Fin 4) (s : Fin 8192) (u : Fin 1) :
    RefValue.rowMean (F := Ideal) x (ix3 n s u) = Cert.Spec.mean (fun k => x (ix3 n s k)) := by
  unfold RefValue.rowMean Cert.Spec.mean
  rw [hostDivf_apply, keep_apply, rowSum_apply, broadcastInDim_scalar_apply, constant_apply]

/-- The centred array at (n, s, c): the entry minus the mean of its row. -/
theorem center_apply (x : FVec Ideal S4x8192x1024 .f32) (n : Fin 4) (s : Fin 8192) (c : Fin 1024) :
    RefValue.center (F := Ideal) x (ix3 n s c) = Cert.Spec.cen (fun k => x (ix3 n s k)) c := by
  unfold RefValue.center Cert.Spec.cen
  rw [subf_apply, stretch_apply, rowMean_apply]

/-! ## The variance of a row, and the normalised entry -/

/-- The mean of the squared centred entries of row (n, s) is that row's variance: entry k of the squared centred row is
    `(x(n,s,k) - μ) · (x(n,s,k) - μ)`, term by term under the sum. -/
theorem var_apply (x : FVec Ideal S4x8192x1024 .f32) (n : Fin 4) (s : Fin 8192) (u : Fin 1) :
    RefValue.rowMean (F := Ideal) (mulf (RefValue.center (F := Ideal) x) (RefValue.center (F := Ideal) x)) (ix3 n s u)
      = Cert.Spec.var (fun k => x (ix3 n s k)) := by
  rw [rowMean_apply]
  unfold Cert.Spec.mean Cert.Spec.var
  refine congrArg (fun t => Ideal.div t Cert.Spec.n1024) (Finset.sum_congr rfl fun k _ => ?_)
  show mulf (RefValue.center (F := Ideal) x) (RefValue.center (F := Ideal) x) (ix3 n s k) = _
  rw [mulf_apply, center_apply]

/-- Entry (n, s, c) of the reference's layer normalisation is the normalised row (n, s) at c:
    `g(c) · ((x(n,s,c) - μ) / √(σ² + ε)) + b(c)`. -/
theorem norm_apply (x : FVec Ideal S4x8192x1024 .f32) (g b : FVec Ideal S1024 .f32) (n : Fin 4) (s : Fin 8192) (c : Fin 1024) :
    RefValue.norm (F := Ideal) x g b (ix3 n s c)
      = Cert.Spec.lnR (fun k => x (ix3 n s k)) (fun k => g (ix1 k)) (fun k => b (ix1 k)) c := by
  unfold RefValue.norm Cert.Spec.lnR
  dsimp only
  rw [addf_apply, mulf_apply, perColumn_apply, perColumn_apply, hostDivf_apply, center_apply, stretch_apply, hostSqrt_apply,
    addf_apply, var_apply, broadcastInDim_scalar_apply, constant_apply]

end Cert.ReferenceIdeal.RefRead

end
-- ==== Proof.RefOut.lean ====
/-
  The reference's result as the specification's function.

  The reference normalises its embedding row by row, and an entry of the normalised array depends only on the row it lies in.
  So entry (n, s, c) of the result is the normalisation of row (n, s) of the embedding, and when every id is 0 or 1 that row is
  the word row plus the position row plus the token-type row the id names. Both facts are proved where the operations are read
  (Proof/RefNorm.lean, Proof/RefTake.lean); here they are composed.
-/
import proofs.«106403_g15573551416060_cont_sun_m_498_33_alg».proof.Proof.RefTake
import proofs.«106403_g15573551416060_cont_sun_m_498_33_alg».proof.Proof.RefNorm

noncomputable section

namespace Cert.ReferenceIdeal.RefRead

open Cert.ReferenceIdeal Idealize.ShloMosaic Idealize.ShloMosaic.ValueIdx

variable [Facts]

/-- With every id 0 or 1, the reference's result is the specification's looked-up form, entry by entry. -/
theorem refOut_eq (w : FVec Ideal S4x8192x1024 .f32) (ids : IVec S4x8192 32) (p : FVec Ideal S8192x1024 .f32)
    (tt : FVec Ideal S2x1024 .f32) (g b : FVec Ideal S1024 .f32) (hids : Cert.Spec.IdsOk ids) :
    RefValue.refOut (F := Ideal) w ids p tt g b = Cert.Spec.outR w ids p tt g b := by
  funext i
  obtain ⟨n, s, c, rfl⟩ : ∃ (n : Fin 4) (s : Fin 8192) (c : Fin 1024), i = ix3 n s c := ⟨i 0, i 1, i 2, eq_ix3 i⟩
  unfold RefValue.refOut
  rw [norm_apply]
  have hrow : (fun k => RefValue.emb (F := Ideal) w ids p tt (ix3 n s k)) = fun k => Cert.Spec.embR w ids p tt n s k :=
    funext fun k => emb_apply w ids p tt hids n s k
  rw [hrow]
  rfl

end Cert.ReferenceIdeal.RefRead

end
-- ==== Proof.Algebra.lean ====
/-
  Why the two spellings of the specification are one function.

  Blending. For an id of 0 the blended row is `a + r₀ + 0 · (r₁ - r₀) = a + r₀`, since zero times any extended real is
  zero. For an id of 1 it is `a + r₀ + (r₁ - r₀)`, and `r₀ + (r₁ - r₀) = r₁` as soon as `r₀` is a real number (the
  cancellation `r₀ - r₀ = 0` fails only at the infinities). Addition of extended reals is commutative and associative, so
  the terms may be regrouped freely; `a` and `r₁` may be anything.

  Scaling. If every entry of a row is real, then so are its mean, its centred entries and its variance, and the variance is
  not negative, being a sum of squares over 1024. With ε a positive real, `v = σ² + ε` is a positive real; there the
  reciprocal square root is the real `(√v)⁻¹`, the square root is the nonzero real `√v`, and dividing any extended real by a
  nonzero real is multiplying it by the reciprocal. So `y · rsqrt v = y / √v` for every extended real `y`, and the rest is
  commutativity of the product.
-/
import proofs.«106403_g15573551416060_cont_sun_m_498_33_alg».proof.Proof.Spec

noncomputable section

open scoped BigOperators

namespace Cert.Spec

open Idealize.ShloMosaic Idealize.ShloMosaic.ValueIdx

/-! ## The two float words -/

/-- The word 0x44800000 is the real number 1024: exponent field 137, so `2²³ · 2^(137 - 127 - 23) = 2¹⁰`. -/
theorem n1024_eq : n1024 = ((1024 : ℝ) : EReal) := by
  simp [Ideal.ofBits, Ideal.ieee, -EReal.coe_mul]; norm_num

/-- The word 0x2B8CBCCC is a positive real number: exponent field 87 (neither all zeros nor all ones) and fraction field
    834764, so `(2²³ + 834764) · 2^(87 - 127 - 23)`, about 10⁻¹². Only its sign matters. -/
theorem eps_pos : ∃ e : ℝ, 0 < e ∧ eps = (e : EReal) := by
  refine ⟨((2 ^ 23 + 834764 : ℕ) : ℝ) * (2 : ℝ) ^ ((87 : ℤ) - 127 - 23), by positivity, ?_⟩
  simp [Ideal.ofBits, Ideal.ieee, -EReal.coe_mul]

/-! ## Sums of real numbers among the extended reals -/

/-- The inclusion of the reals into the extended reals commutes with a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The token-type row: blended or looked up -/

/-- For an id of 0 or 1 and a real row 0 of the table, `row₀ + id · (row₁ - row₀)` is the row the id names. -/
theorem embK_eq_embR (w : IW → EReal) (ids : II → BitVec 32) (p : IP → EReal) (tt : IT → EReal)
    (htt : IsReal tt) (hids : IdsOk ids) (b : Fin 4) (s : Fin 8192) (k : Fin 1024) :
    embK w ids p tt b s k = embR w ids p tt b s k := by
  unfold embK embR
  rcases hids (ix2 b s) with h | h
  · -- id 0: the blend adds zero times the difference
    have hrow : row (ids (ix2 b s)) = 0 := by rw [h]; decide
    have hint : (ids (ix2 b s)).toInt = 0 := by rw [h]; decide
    rw [hrow, hint, Int.cast_zero, EReal.coe_zero, zero_mul, add_zero]
  · -- id 1: row₀ + (row₁ - row₀) = row₁ because row₀ is real
    have hrow : row (ids (ix2 b s)) = 1 := by rw [h]; decide
    have hint : (ids (ix2 b s)).toInt = 1 := by rw [h]; decide
    obtain ⟨r0, hr0⟩ := htt (ix2 (0 : Fin 2) k)
    rw [hrow, hint, Int.cast_one, EReal.coe_one, one_mul, hr0, sub_eq_add_neg, ← EReal.coe_neg,
      add_add_add_comm, ← EReal.coe_add, add_neg_cancel, EReal.coe_zero, add_zero]

/-- The looked-up embedding of real arrays is a row of reals. -/
theorem embR_real (w : IW → EReal) (ids : II → BitVec 32) (p : IP → EReal) (tt : IT → EReal)
    (hw : IsReal w) (hp : IsReal p) (htt : IsReal tt) (b : Fin 4) (s : Fin 8192) :
    IsReal (fun k => embR w ids p tt b s k) := fun k => by
  obtain ⟨a, ha⟩ := hw (ix3 b s k)
  obtain ⟨a', ha'⟩ := hp (ix2 s k)
  obtain ⟨a'', ha''⟩ := htt (ix2 (row (ids (ix2 b s))) k)
  refine ⟨a + a' + a'', ?_⟩
  show embR w ids p tt b s k = _
  unfold embR
  rw [ha, ha', ha'', EReal.coe_add, EReal.coe_add]

/-! ## The scaling: by the reciprocal square root, or dividing by the square root -/

/-- On a row of reals the two normalisations agree: the variance plus ε is a positive real `v`, where
    `y · rsqrt v = y · (√v)⁻¹ = y / √v` for every extended real `y`. -/
theorem lnK_eq_lnR (x g b : Fin 1024 → EReal) (hx : IsReal x) (c : Fin 1024) : lnK x g b c = lnR x g b c := by
  choose xr hxr using hx
  obtain ⟨e, he, heps⟩ := eps_pos
  -- the mean is the real mean
  have hmean : mean x = (((∑ k, xr k) * (1 / 1024) : ℝ) : EReal) := by
    unfold mean
    rw [n1024_eq, Ideal.div_coe (by norm_num), EReal.coe_mul, coe_sum]
    simp only [hxr]
  -- the centred entries are the real centred entries
  have hcen : ∀ k, cen x k = ((xr k - (∑ k, xr k) * (1 / 1024) : ℝ) : EReal) := fun k => by
    unfold cen; rw [hmean, hxr k, EReal.coe_sub]
  -- the variance is the real variance
  have hvar : var x = (((∑ k, (xr k - (∑ k, xr k) * (1 / 1024)) * (xr k - (∑ k, xr k) * (1 / 1024))) * (1 / 1024) : ℝ) : EReal) := by
    unfold var
    rw [n1024_eq, Ideal.div_coe (by norm_num), EReal.coe_mul, coe_sum]
    simp only [hcen, EReal.coe_mul]
  -- so the variance plus ε is a positive real
  have hsq : 0 ≤ ∑ k, (xr k - (∑ k, xr k) * (1 / 1024)) * (xr k - (∑ k, xr k) * (1 / 1024)) :=
    Finset.sum_nonneg fun k _ => mul_self_nonneg _
  have hv : 0 < (∑ k, (xr k - (∑ k, xr k) * (1 / 1024)) * (xr k - (∑ k, xr k) * (1 / 1024))) * (1 / 1024) + e := by
    positivity
  have hs : Real.sqrt ((∑ k, (xr k - (∑ k, xr k) * (1 / 1024)) * (xr k - (∑ k, xr k) * (1 / 1024))) * (1 / 1024) + e) ≠ 0 :=
    (Real.sqrt_pos.mpr hv).ne'
  unfold lnK lnR
  rw [hvar, heps, ← EReal.coe_add, Ideal.rsqrt_coe, if_neg (not_lt.mpr hv.le), if_neg hv.ne', Ideal.sqrt_coe,
    if_neg (not_lt.mpr hv.le), Ideal.div_coe hs, mul_comm (g c)]
  simp only [one_div]

/-! ## The two results -/

/-- With real word embeddings, position table and token-type table, and every id 0 or 1, the result computed with the
    blended row and the reciprocal square root is the result computed with the looked-up row and the division. The
    weight and the bias may be any extended reals. -/
theorem outK_eq_outR (w : IW → EReal) (ids : II → BitVec 32) (p : IP → EReal) (tt : IT → EReal) (g b : IH → EReal)
    (hw : IsReal w) (hp : IsReal p) (htt : IsReal tt) (hids : IdsOk ids) :
    outK w ids p tt g b = outR w ids p tt g b := by
  funext i
  unfold outK outR
  have hrow : (fun k => embK w ids p tt (i 0) (i 1) k) = fun k => embR w ids p tt (i 0) (i 1) k :=
    funext fun k => embK_eq_embR w ids p tt htt hids _ _ k
  rw [hrow]
  exact lnK_eq_lnR _ _ _ (embR_real w ids p tt hw hp htt _ _) _

end Cert.Spec

end
-- ==== Proof.PreDecode.lean ====
/-
  What the precondition says, entry by entry.

  The precondition is one bit: the conjunction of six "for all entries" tests. Five of them say of a float array that every
  entry's absolute value is below plus infinity; the sixth says of the token-type ids that every id is at least 0 and below 2,
  read as signed integers. A conjunction that is 1 has every conjunct 1, and a "for all" (a reduction by `and` over every
  axis, from the bit 1) that is 1 has the bit 1 at every entry.

  For an extended real `a`, `max a (-a) < ⊤` rules out both infinities (at either one the maximum is `⊤`), so `a` is a real
  number. For a 32-bit word `v` with `0 ≤ v < 2` as a signed integer, the integer is 0 or 1, and a word is determined by its
  signed value, so `v` is the word 0 or the word 1.

  Only three of the five float facts are used by the certificate (the word embeddings, the position table and the token-type
  table): the weight and the bias enter the result through one product and one sum on both sides alike.
-/
import proofs.«106403_g15573551416060_cont_sun_m_498_33_alg».proof.Pre_finite_inputs
import proofs.«106403_g15573551416060_cont_sun_m_498_33_alg».proof.Proof.Spec
import Idealize.ShloMosaic.Lib.ReduceAll
import Idealize.ShloMosaic.PureOps.Ideal.Laws

noncomputable section

namespace Cert.PreDecode

open Idealize.ShloMosaic Idealize.ShloMosaic.ValueIdx Cert.Pre_finite_inputs

variable [Cert.Pre_finite_inputs.Facts]
open Cert.Pre_finite_inputs.Facts

/-- The shape with no axes has exactly one index. -/
instance : Subsingleton S_.Idx := ⟨fun _ _ => funext fun d => d.elim0⟩

/-- An extended real whose absolute value tests below the word for plus infinity is a real number: the word denotes `⊤`, and
    `max a (-a)` is `⊤` at both infinities. -/
theorem real_of_abs_lt_inf (a : EReal)
    (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  have hlt : max a (-a) < ⊤ := by
    by_contra hn
    simp [Ideal.cmp, hn] at h
  induction a using EReal.rec with
  | bot => simp at hlt
  | coe r => exact ⟨r, rfl⟩
  | top => simp at hlt

/-- One "every entry is finite" test that came out 1: every entry of the array is a real number. -/
theorem isReal_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ix0 = 1#1) :
    Cert.Spec.IsReal x := fun i =>
  real_of_abs_lt_inf (x i) (Host.reduce_andi_all _ _ hr hu ix0 e i)

/-- The precondition, read back: the word embeddings, the position table and the token-type table hold real numbers, and
    every token-type id is the word 0 or the word 1. -/
theorem decode (a0 : FVec Ideal S4x8192x1024 .f32) (a1 : IVec S4x8192 32) (a2 : FVec Ideal S8192x1024 .f32)
    (a3 : FVec Ideal S2x1024 .f32) (a4 a5 : FVec Ideal S1024 .f32)
    (h : fn (F := Ideal) a0 a1 a2 a3 a4 a5 = fun _ => 1#1) :
    Cert.Spec.IsReal a0 ∧ Cert.Spec.IsReal a2 ∧ Cert.Spec.IsReal a3 ∧ Cert.Spec.IdsOk a1 := by
  have h0 := congrFun h ix0
  dsimp only [fn, fn_part1] at h0
  -- the conjunction, split from the outside in: ids, bias, weight, token-type table, position table, word embeddings
  obtain ⟨h0, hI⟩ := IntOp.andi_eq_one.1 h0
  obtain ⟨h0, _⟩ := IntOp.andi_eq_one.1 h0
  obtain ⟨h0, _⟩ := IntOp.andi_eq_one.1 h0
  obtain ⟨h0, h3⟩ := IntOp.andi_eq_one.1 h0
  obtain ⟨h0, h2⟩ := IntOp.andi_eq_one.1 h0
  refine ⟨isReal_of_all a0 _ _ _ h0, isReal_of_all a2 _ _ _ h2, isReal_of_all a3 _ _ _ h3, fun j => ?_⟩
  -- the ids: 0 ≤ id and id < 2 as signed integers
  have hj := Host.reduce_andi_all _ _ _ _ ix0 hI j
  obtain ⟨hge, hlt⟩ := IntOp.andi_eq_one.1 hj
  have hge' : (0#32 : BitVec 32).toInt ≤ (a1 j).toInt := IntOp.cmpi_sge.1 hge
  have hlt' : (a1 j).toInt < (2#32 : BitVec 32).toInt := IntOp.cmpi_slt.1 hlt
  have e0 : (0#32 : BitVec 32).toInt = 0 := by decide
  have e2 : (2#32 : BitVec 32).toInt = 2 := by decide
  rw [e0] at hge'
  rw [e2] at hlt'
  rcases (by omega : (a1 j).toInt = 0 ∨ (a1 j).toInt = 1) with hz | ho
  · exact Or.inl (BitVec.eq_of_toInt_eq (by rw [hz]; decide))
  · exact Or.inr (BitVec.eq_of_toInt_eq (by rw [ho]; decide))

end Cert.PreDecode

end
-- ==== Proof.lean ====
/-
  The certificate: a fused embedding-and-normalisation kernel equals its array-library reference over the extended reals.

  Both programs compute, for each of 4 × 8192 tokens, a row of 1024 numbers: the token's word row, plus the row of the position
  table at the token's position, plus one of the two rows of the token-type table; the row is then normalised (mean removed,
  divided by the square root of its variance plus ε), multiplied by a weight and shifted by a bias (Proof/Spec.lean).

  The kernel walks the tokens in 16 blocks of one batch by 2048 positions. It never looks a token-type row up: it adds
  `row₀ + id · (row₁ - row₀)`, and it multiplies by the reciprocal square root where the reference divides by the square root.
  What its result array holds after the run is read off block by block (Proof/KernelRow.lean, KernelBlocks.lean,
  KernelRun.lean). The reference is read operation by operation (Proof/RefTerm.lean: its operations as pure functions;
  RefRun.lean: its run ends at that function of the arguments; RefTake.lean, RefNorm.lean, RefOut.lean: the function at an entry).

  The two agree when the word embeddings, the position table and the token-type table hold real numbers and every token-type
  id is 0 or 1 (Proof/Algebra.lean): that is what the precondition says (Proof/PreDecode.lean). Outside it they differ: at an
  id of 2 the reference's lookup is out of range, and at an id of -1 it reads the last row while the blend extrapolates.

  The three frame claims are the generated frame runs of the two kernel programs and, for the reference, its run with the
  result forgotten. The idealised kernel is the kernel's own text read over the extended reals, so nothing is owed for that step.
-/
import proofs.«106403_g15573551416060_cont_sun_m_498_33_alg».proof.Defs
import proofs.«106403_g15573551416060_cont_sun_m_498_33_alg».proof.Proof.Gen.Kernel
import proofs.«106403_g15573551416060_cont_sun_m_498_33_alg».proof.Proof.Gen.Kernel.Frame
import proofs.«106403_g15573551416060_cont_sun_m_498_33_alg».proof.Proof.Gen.KernelIdeal
import proofs.«106403_g15573551416060_cont_sun_m_498_33_alg».proof.Proof.Gen.KernelIdeal.Frame
import proofs.«106403_g15573551416060_cont_sun_m_498_33_alg».proof.Proof.Gen.ReferenceIdeal
import proofs.«106403_g15573551416060_cont_sun_m_498_33_alg».proof.Proof.Gen.Pre_finite_inputs
import proofs.«106403_g15573551416060_cont_sun_m_498_33_alg».proof.Proof.KernelRun
import proofs.«106403_g15573551416060_cont_sun_m_498_33_alg».proof.Proof.RefRun
import proofs.«106403_g15573551416060_cont_sun_m_498_33_alg».proof.Proof.RefOut
import proofs.«106403_g15573551416060_cont_sun_m_498_33_alg».proof.Proof.Algebra
import proofs.«106403_g15573551416060_cont_sun_m_498_33_alg».proof.Proof.PreDecode
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.RefRun.run m ρ)

/-- The idealised kernel is the kernel's text with no operation rewritten: there is nothing to preserve. -/
theorem preserves : Cert.preserves_Kernel_KernelIdeal := trivial

/-- From arguments that agree and satisfy the precondition, the kernel's result array and the reference's are the same
    function of the arguments: the kernel's is the blended form, the reference's the looked-up form, and the precondition
    makes the two forms equal. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run m' ρ')
  obtain ⟨hw, hp, htt, hids⟩ := Cert.PreDecode.decode _ _ _ _ _ _ (hpre c)
  rw [(hagree c).1, (hagree c).2.1, (hagree c).2.2.1, (hagree c).2.2.2.1, (hagree c).2.2.2.2.1, (hagree c).2.2.2.2.2,
    Cert.ReferenceIdeal.RefRead.refOut_eq _ _ _ _ _ _ hids]
  exact (Cert.Spec.outK_eq_outR _ _ _ _ _ _ hw hp htt hids).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
